-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x500000 32) (main_arg2 : IVec S2x100000 32) (main_arg3 : FVec F S128x128 .f32) (main_arg4 : FVec F S128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S50000x128 : Shape := ⟨2, ![50000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S2x600000 : Shape := ⟨2, ![2, 600000]⟩
abbrev S_ : Shape := ⟨0, ![]⟩
abbrev S500000 : Shape := ⟨1, ![500000]⟩
abbrev S100000 : Shape := ⟨1, ![100000]⟩
abbrev S600000 : Shape := ⟨1, ![600000]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩

abbrev nBuf : Space → Nat
  | .hbm => 95
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S2x100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x600000, .i32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S100000, .f32⟩
  | .hbm, ⟨12, _⟩ => ⟨S600000, .f32⟩
  | .hbm, ⟨13, _⟩ => ⟨S50000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S1x600000, .i32⟩
  | .hbm, ⟨18, _⟩ => ⟨S600000, .i32⟩
  | .hbm, ⟨19, _⟩ => ⟨S650000, .i32⟩
  | .hbm, ⟨20, _⟩ => ⟨S_, .f32⟩
  | .hbm, ⟨21, _⟩ => ⟨S50000, .f32⟩
  | .hbm, ⟨22, _⟩ => ⟨S650000, .f32⟩
  | .hbm, ⟨23, _⟩ => ⟨S_, .f32⟩
  | .hbm, ⟨24, _⟩ => ⟨S50000, .f32⟩
  | .hbm, ⟨25, _⟩ => ⟨S650000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000, .f32⟩
  | .hbm, ⟨57, _⟩ => ⟨S650000, .f32⟩
  | .hbm, ⟨58, _⟩ => ⟨S50000x128, .f32⟩
  | .hbm, ⟨59, _⟩ => ⟨S650000x1, .f32⟩
  | .hbm, ⟨60, _⟩ => ⟨S_, .i32⟩
  | .hbm, ⟨61, _⟩ => ⟨S650000, .i32⟩
  | .hbm, ⟨62, _⟩ => ⟨S650000, .i1⟩
  | .hbm, ⟨63, _⟩ => ⟨S_, .i32⟩
  | .hbm, ⟨64, _⟩ => ⟨S650000, .i32⟩
  | .hbm, ⟨65, _⟩ => ⟨S650000, .i32⟩
  | .hbm, ⟨66, _⟩ => ⟨S650000, .i32⟩
  | .hbm, ⟨67, _⟩ => ⟨S650000x1, .i32⟩
  | .hbm, ⟨68, _⟩ => ⟨S650000x128, .f32⟩
  | .hbm, ⟨69, _⟩ => ⟨S650000x128, .f32⟩
  | .hbm, ⟨70, _⟩ => ⟨S650000x128, .f32⟩
  | .hbm, ⟨71, _⟩ => ⟨S_, .f32⟩
  | .hbm, ⟨72, _⟩ => ⟨S50000x128, .f32⟩
  | .hbm, ⟨73, _⟩ => ⟨S650000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S128, .f32⟩
  | .hbm, ⟨89, _⟩ => ⟨S128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55_0 : Ref sig .tc := ⟨.hbm, 78, rfl⟩
abbrev main_v55_1 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S2x500000_S2x100000_S2x600000_d1 : Shape.Concatenates [S2x500000, S2x100000] S2x600000 1
  bcast_S_S500000 : S_.BroadcastsInDim S500000 (![] : Fin 0 → Fin S500000.rank)
  bcast_S_S100000 : S_.BroadcastsInDim S100000 (![] : Fin 0 → Fin S100000.rank)
  concatenates_S500000_S100000_S600000_d0 : Shape.Concatenates [S500000, S100000] S600000 0
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S2x100000 : Shape := ⟨2, ![2, 100000]⟩
abbrev S128x128 : Shape := ⟨2, ![128, 128]⟩
abbrev S128 : Shape := ⟨1, ![128]⟩
abbrev S2x600000 : Shape := ⟨2, ![2, 600000]⟩
abbrev S_ : Shape := ⟨0, ![]⟩
abbrev S500000 : Shape := ⟨1, ![500000]⟩
abbrev S100000 : Shape := ⟨1, ![100000]⟩
abbrev S600000 : Shape := ⟨1, ![600000]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S2x100000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S2x600000, .i32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S100000, .f32⟩
  | .hbm, ⟨12, _⟩ => ⟨S600000, .f32⟩
  | .hbm, ⟨13, _⟩ => ⟨S50000, .i32⟩
  | .hbm, ⟨14, _⟩ => ⟨S1x600000, .i32⟩
  | .hbm, ⟨15, _⟩ => ⟨S600000, .i32⟩
  | .hbm, ⟨16, _⟩ => ⟨S650000, .i32⟩
  | .hbm, ⟨17, _⟩ => ⟨S1x600000, .i32⟩
  | .hbm, ⟨18, _⟩ => ⟨S600000, .i32⟩
  | .hbm, ⟨19, _⟩ => ⟨S650000, .i32⟩
  | .hbm, ⟨20, _⟩ => ⟨S_, .f32⟩
  | .hbm, ⟨21, _⟩ => ⟨S50000, .f32⟩
  | .hbm, ⟨22, _⟩ => ⟨S650000, .f32⟩
  | .hbm, ⟨23, _⟩ => ⟨S_, .f32⟩
  | .hbm, ⟨24, _⟩ => ⟨S50000, .f32⟩
  | .hbm, ⟨25, _⟩ => ⟨S650000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S650000x1, .i32⟩
  | .hbm, ⟨56, _⟩ => ⟨S650000, .f32⟩
  | .hbm, ⟨57, _⟩ => ⟨S650000, .f32⟩
  | .hbm, ⟨58, _⟩ => ⟨S50000x128, .f32⟩
  | .hbm, ⟨59, _⟩ => ⟨S650000x1, .f32⟩
  | .hbm, ⟨60, _⟩ => ⟨S_, .i32⟩
  | .hbm, ⟨61, _⟩ => ⟨S650000, .i32⟩
  | .hbm, ⟨62, _⟩ => ⟨S650000, .i1⟩
  | .hbm, ⟨63, _⟩ => ⟨S_, .i32⟩
  | .hbm, ⟨64, _⟩ => ⟨S650000, .i32⟩
  | .hbm, ⟨65, _⟩ => ⟨S650000, .i32⟩
  | .hbm, ⟨66, _⟩ => ⟨S650000, .i32⟩
  | .hbm, ⟨67, _⟩ => ⟨S650000x1, .i32⟩
  | .hbm, ⟨68, _⟩ => ⟨S650000x128, .f32⟩
  | .hbm, ⟨69, _⟩ => ⟨S650000x128, .f32⟩
  | .hbm, ⟨70, _⟩ => ⟨S650000x128, .f32⟩
  | .hbm, ⟨71, _⟩ => ⟨S_, .f32⟩
  | .hbm, ⟨72, _⟩ => ⟨S50000x128, .f32⟩
  | .hbm, ⟨73, _⟩ => ⟨S650000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S_, .i32⟩
  | .hbm, ⟨84, _⟩ => ⟨S_, .f32⟩
  | .hbm, ⟨85, _⟩ => ⟨S128, .f32⟩
  | .hbm, ⟨86, _⟩ => ⟨S1x128, .f32⟩
  | .hbm, ⟨87, _⟩ => ⟨S_, .f32⟩
  | .hbm, ⟨88, _⟩ => ⟨S1x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S_, .i1⟩
  | .hbm, ⟨102, _⟩ => ⟨S_, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S128, .f32⟩
  | .hbm, ⟨111, _⟩ => ⟨S128, .f32⟩
  | .hbm, ⟨112, _⟩ => ⟨S128, .f32⟩
  | .hbm, ⟨113, _⟩ => ⟨S1x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_c_14 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_cst_1 : Ref sig .tc := ⟨.hbm, 94, rfl⟩
abbrev main_call1_v8 : Ref sig .tc := ⟨.hbm, 95, rfl⟩
abbrev main_call1_cst_2 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_cst_3 : Ref sig .tc := ⟨.hbm, 100, rfl⟩
abbrev main_call1_v12 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_15 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_call2_cst : Ref sig .tc := ⟨.hbm, 122, rfl⟩
abbrev main_call2_v0 : Ref sig .tc := ⟨.hbm, 123, rfl⟩
abbrev main_v74 : Ref sig .tc := ⟨.hbm, 124, rfl⟩

abbrev nD : Nat := 1
abbrev τ : Topo := Topo.v7x

variable {F : FTy → Type} [FloatOps F]

class Facts₀ : Prop where
  concatenates_S2x500000_S2x100000_S2x600000_d1 : Shape.Concatenates [S2x500000, S2x100000] S2x600000 1
  bcast_S_S500000 : S_.BroadcastsInDim S500000 (![] : Fin 0 → Fin S500000.rank)
  bcast_S_S100000 : S_.BroadcastsInDim S100000 (![] : Fin 0 → Fin S100000.rank)
  concatenates_S500000_S100000_S600000_d0 : Shape.Concatenates [S500000, S100000] S600000 0
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KernelRun.lean ====
/-
  The idealized kernel's run with its result named.  Every weakly fair execution of the kernel's @main terminates
  without a fault; its result buffer ends at the contents the last boundary of the run assigns it (the third
  region's output array after its ten write-backs), and the seven argument arrays end as launched.  The run is
  the chain of host stretches and regions; what is read here beside the arguments is one more buffer of the
  last boundary.
-/
import proofs.«132868_j17540646437112_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the kernel's @main from any memory with zero counters: the result buffer ends at the last
    boundary's contents, the arguments as launched. -/
theorem run_value : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.RefChain.lean ====
/-
  The reference's computation as pure functions of the argument arrays, stage by stage as its host operations compose
  them (extended reals; integers are 32-bit words).  The stages up to the aggregate are those of the kernel's
  program: edge lists with self-loops, weights, degree, `dis`, the edge coefficients `coef`, the messages, the
  aggregate `aggOf h` of a product h = x · W.  Then the batch normalisation: the column means (totals / 50000), the
  column variances as the totals of the squared deviations from the means over 50000, and
  max (gamma · ((agg − mean) · (var + 1e-5)^(-1/2)) + beta, 0).
-/
import proofs.«132868_j17540646437112_1_alg».proof.Proof.Gen.ReferenceIdeal
import Idealize.ShloMosaic.PureOps.Ideal

noncomputable section

namespace Cert.ReferenceIdeal.Chain

open Cert.ReferenceIdeal Cert.ReferenceIdeal.Facts₀ Cert.ReferenceIdeal.Facts Idealize.ShloMosaic

/-- Contents of an integer, float and boolean buffer of shape `S` at the extended reals. -/
abbrev CI (S : Shape) := IVec S 32
abbrev CF (S : Shape) := FVec Ideal S .f32
abbrev CB (S : Shape) := IVec S 1

/-- The two edge lists side by side: [2, 600000]. -/
def edges (a1 : CI S2x500000) (a2 : CI S2x100000) : CI S2x600000 :=
  concatenate S2x600000 1 [⟨S2x500000, a1⟩, ⟨S2x100000, a2⟩] concatenates_S2x500000_S2x100000_S2x600000_d1

/-- The self-loops 0, 1, …, 49999. -/
def loops : CI S50000 := iotaInDim S50000 32 0

/-- The sources: row 0 of the edges, then the self-loops. -/
def rowIdx (a1 : CI S2x500000) (a2 : CI S2x100000) : CI S650000 :=
  concatenate S650000 0 [⟨S600000, shapeCast S600000 (extractStridedSlice S1x600000 ![0, 0] (edges a1 a2) slices_S2x600000_S1x600000_0_0) shapeCasts_S1x600000_S600000⟩, ⟨S50000, loops⟩] concatenates_S600000_S50000_S650000_d0

/-- The targets: row 1 of the edges, then the self-loops. -/
def colIdx (a1 : CI S2x500000) (a2 : CI S2x100000) : CI S650000 :=
  concatenate S650000 0 [⟨S600000, shapeCast S600000 (extractStridedSlice S1x600000 ![1, 0] (edges a1 a2) slices_S2x600000_S1x600000_1_0) shapeCasts_S1x600000_S600000⟩, ⟨S50000, loops⟩] concatenates_S600000_S50000_S650000_d0

/-- The weights: ones, zeros, ones. -/
def wts : CF S650000 :=
  concatenate S650000 0 [⟨S600000, concatenate S600000 0 [⟨S500000, broadcastInDim S500000 ![] bcast_S_S500000 (constant (F := Ideal) S_ .f32 0x3F800000#32)⟩, ⟨S100000, broadcastInDim S100000 ![] bcast_S_S100000 (constant (F := Ideal) S_ .f32 0x00000000#32)⟩] concatenates_S500000_S100000_S600000_d0⟩, ⟨S50000, broadcastInDim S50000 ![] bcast_S_S50000 (constant (F := Ideal) S_ .f32 0x3F800000#32)⟩] concatenates_S600000_S50000_S650000_d0

/-- The degree: the weights summed at their targets, from zero. -/
def deg (a1 : CI S2x500000) (a2 : CI S2x100000) : CF S50000 :=
  Host.scatterAdd (F := Ideal) scatter_S50000_S650000x1_S650000_n_0_0_1 (broadcastInDim S50000 ![] bcast_S_S50000 (constant (F := Ideal) S_ .f32 0x00000000#32)) (broadcastInDim S650000x1 ![0] bcast_S650000_S650000x1_0 (colIdx a1 a2)) wts

/-- Where the degree is positive. -/
def degPos (a1 : CI S2x500000) (a2 : CI S2x100000) : CB S50000 :=
  cmpf .ogt (deg a1 a2) (broadcastInDim S50000 ![] bcast_S_S50000 (constant (F := Ideal) S_ .f32 0x00000000#32))

/-- The inverse square root of the degree kept away from zero. -/
def degRsqrt (a1 : CI S2x500000) (a2 : CI S2x100000) : CF S50000 :=
  Host.rsqrt (F := Ideal) (maximumf (deg a1 a2) (broadcastInDim S50000 ![] bcast_S_S50000 (constant (F := Ideal) S_ .f32 0x2B8CBCCC#32)))

/-- `dis`: the inverse square root where the degree is positive, zero elsewhere. -/
def dis (a1 : CI S2x500000) (a2 : CI S2x100000) : CF S50000 :=
  select (degPos a1 a2) (degRsqrt a1 a2) (broadcastInDim S50000 ![] bcast_S_S50000 (id (constant (F := Ideal) S_ .f32 0x00000000#32)))

/-- An index list wrapped once (a negative entry has 50000 added) as a column of start indices. -/
def wrapIdx (v : CI S650000) : CI S650000x1 :=
  broadcastInDim S650000x1 ![0] bcast_S650000_S650000x1_0 (select (cmpi .slt v (broadcastInDim S650000 ![] bcast_S_S650000 (constantI S_ 32 0#32))) (addi v (broadcastInDim S650000 ![] bcast_S_S650000 (constantI S_ 32 50000#32))) v)

/-- The edge coefficients dis(row) · w · dis(col). -/
def coef (a1 : CI S2x500000) (a2 : CI S2x100000) : CF S650000 :=
  mulf (mulf (Host.gather gather_S50000_S650000x1_S650000_n_0_n_n_0_1_1 (dis a1 a2) (wrapIdx (rowIdx a1 a2))) wts) (Host.gather gather_S50000_S650000x1_S650000_n_0_n_n_0_1_1 (dis a1 a2) (wrapIdx (colIdx a1 a2)))

/-- The messages coef e · h(row e, ·): [650000, 128]. -/
def msgs (h : CF S50000x128) (a1 : CI S2x500000) (a2 : CI S2x100000) : CF S650000x128 :=
  mulf (broadcastInDim S650000x128 ![0, 1] bcast_S650000x1_S650000x128_0_1 (broadcastInDim S650000x1 ![0] bcast_S650000_S650000x1_0 (coef a1 a2))) (Host.gather gather_S50000x128_S650000x1_S650000x128_1_0_n_n_0_1_1128 h (wrapIdx (rowIdx a1 a2)))

/-- The aggregate: the messages summed at their targets from zero, plus the bias along the rows. -/
def aggOf (h : CF S50000x128) (a1 : CI S2x500000) (a2 : CI S2x100000) (a4 : CF S128) : CF S50000x128 :=
  addf (Host.scatterAdd (F := Ideal) scatter_S50000x128_S650000x1_S650000x128_1_0_0_1 (broadcastInDim S50000x128 ![] bcast_S_S50000x128 (constant (F := Ideal) S_ .f32 0x00000000#32)) (broadcastInDim S650000x1 ![0] bcast_S650000_S650000x1_0 (colIdx a1 a2)) (msgs h a1 a2)) (broadcastInDim S50000x128 ![0, 1] bcast_S1x128_S50000x128_0_1 (broadcastInDim S1x128 ![1] bcast_S128_S1x128_1 a4))

/-- The column totals of a [50000,128] array, from zero. -/
def colSum (x : CF S50000x128) : CF S128 :=
  Host.reduceAdd (F := Ideal) x (constant (F := Ideal) S_ .f32 0x00000000#32) reducesTo_S50000x128_S128_d0 h_S_

/-- A vector of 128 entries as a [1,128] row, and such a row repeated down the 50000 rows. -/
def asRowR (v : CF S128) : CF S1x128 := broadcastInDim S1x128 ![1] bcast_S128_S1x128_1 v
def downRows (r : CF S1x128) : CF S50000x128 := broadcastInDim S50000x128 ![0, 1] bcast_S1x128_S50000x128_0_1 r

/-- The column means: totals / 50000. -/
def meanR (agg : CF S50000x128) : CF S128 :=
  Host.divf (F := Ideal) (colSum agg) (broadcastInDim S128 ![] bcast_S_S128 (constant (F := Ideal) S_ .f32 0x47435000#32))

/-- The variance routine's own column means, kept as a row: (totals as a row) / 50000. -/
def varMean (agg : CF S50000x128) : CF S1x128 :=
  Host.divf (F := Ideal) (asRowR (colSum agg)) (broadcastInDim S1x128 ![] bcast_S_S1x128 (constant (F := Ideal) S_ .f32 0x47435000#32))

/-- The deviations from the column means. -/
def centered (agg : CF S50000x128) : CF S50000x128 := subf agg (downRows (varMean agg))

/-- The variance's divisor: 50000 minus the (zero) correction, as a float. -/
def count : CF S_ := subf (constant (F := Ideal) S_ .f32 0x47435000#32) (sitofp .f32 (constantI S_ 32 0#32))

/-- The column variances: the totals of the squared deviations over the divisor where the divisor is positive (else the
    not-a-number pattern). -/
def varR (agg : CF S50000x128) : CF S128 :=
  select (broadcastInDim S128 ![] bcast_S_S128 (cmpf .ogt count (constant (F := Ideal) S_ .f32 0x00000000#32)))
    (Host.divf (F := Ideal) (colSum (mulf (centered agg) (centered agg))) (broadcastInDim S128 ![] bcast_S_S128 count))
    (broadcastInDim S128 ![] bcast_S_S128 (id (constant (F := Ideal) S_ .f32 0x7FC00000#32)))

/-- The normalisation and the rectifier: max (gamma · ((agg − mean) · (var + 1e-5)^(-1/2)) + beta, 0). -/
def bnOf (agg : CF S50000x128) (a5 a6 : CF S128) : CF S50000x128 :=
  maximumf
    (addf (mulf (downRows (asRowR a5)) (mulf (subf agg (downRows (asRowR (meanR agg))))
        (downRows (asRowR (Host.rsqrt (F := Ideal) (addf (varR agg) (broadcastInDim S128 ![] bcast_S_S128 (constant (F := Ideal) S_ .f32 0x3727C5AC#32))))))))
      (downRows (asRowR a6)))
    (broadcastInDim S50000x128 ![] bcast_S_S50000x128 (constant (F := Ideal) S_ .f32 0x00000000#32))

end Cert.ReferenceIdeal.Chain

end
-- ==== Proof.RefRun.lean ====
import proofs.«132868_j17540646437112_1_alg».proof.Proof.Gen.ReferenceIdeal
import proofs.«132868_j17540646437112_1_alg».proof.Proof.RefChain
import Idealize.ShloMosaic.Lib.StableHlo.Run

/-! The reference program's run, read back by hand: @main as the list of its host operations (the three
    outlined functions it calls — one of which calls a fourth — listed inline at their call sites over the
    calls' buffer records), cut into eight consecutive stretches, one per stage of the computation; each
    stretch's results as pure functions of the buffers it reads; and the whole run composed from them. -/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 16 of 118: the edge lists with the self loops appended: row indices, column indices, weights (%0 … %12). -/
def opsA : List (HloOp τ sig (Elt F)) :=
  [ StableHlo.binary main_arg1 main_arg2 main_v0 ((fun a b => concatenate S2x600000 1 [⟨S2x500000, a⟩, ⟨S2x100000, b⟩] concatenates_S2x500000_S2x100000_S2x600000_d1) : (⟨S2x500000, .i32⟩ : BufTy).Contents (Elt F) → (⟨S2x100000, .i32⟩ : BufTy).Contents (Elt F) → (⟨S2x600000, .i32⟩ : BufTy).Contents (Elt F)),
    StableHlo.nullary main_cst (constant S_ .f32 0x3F800000#32),
    StableHlo.unary main_cst main_v1 (broadcastInDim S500000 ![] bcast_S_S500000 : (⟨S_, .f32⟩ : BufTy).Contents (Elt F) → (⟨S500000, .f32⟩ : BufTy).Contents (Elt F)),
    StableHlo.nullary main_cst_0 (constant S_ .f32 0x00000000#32),
    StableHlo.unary main_cst_0 main_v2 (broadcastInDim S100000 ![] bcast_S_S100000 : (⟨S_, .f32⟩ : BufTy).Contents (Elt F) → (⟨S100000, .f32⟩ : BufTy).Contents (Elt F)),
    StableHlo.binary main_v1 main_v2 main_v3 ((fun a b => concatenate S600000 0 [⟨S500000, a⟩, ⟨S100000, b⟩] concatenates_S500000_S100000_S600000_d0) : (⟨S500000, .f32⟩ : BufTy).Contents (Elt F) → (⟨S100000, .f32⟩ : BufTy).Contents (Elt F) → (⟨S600000, .f32⟩ : BufTy).Contents (Elt F)),
    StableHlo.nullary main_v4 (iotaInDim S50000 32 0),
    StableHlo.unary main_v0 main_v5 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v5 main_v6 rfl shapeCasts_S1x600000_S600000,
    StableHlo.binary main_v6 main_v4 main_v7 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_v0 main_v8 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v8 main_v9 rfl shapeCasts_S1x600000_S600000,
    StableHlo.binary main_v9 main_v4 main_v10 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v3 main_v11 main_v12 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)) ]

/-- Operations 17 … 31 of 118: the weighted in-degree by scatter-add and its guarded inverse square root (%13 … %21). -/
def opsB : List (HloOp τ sig (Elt F)) :=
  [ StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v10 main_v14 (broadcastInDim S650000x1 ![0] bcast_S650000_S650000x1_0 : (⟨S650000, .i32⟩ : BufTy).Contents (Elt F) → (⟨S650000x1, .i32⟩ : BufTy).Contents (Elt F)),
    StableHlo.ternary main_v13 main_v14 main_v12 main_v15 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_3 (constant S_ .f32 0x00000000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.nullary main_cst_4 (constant S_ .f32 0x2B8CBCCC#32),
    StableHlo.unary main_cst_4 main_v18 (broadcastInDim S50000 ![] bcast_S_S50000 : (⟨S_, .f32⟩ : BufTy).Contents (Elt F) → (⟨S50000, .f32⟩ : BufTy).Contents (Elt F)),
    StableHlo.binary main_v15 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (Host.rsqrt : (⟨S50000, .f32⟩ : BufTy).Contents (Elt F) → (⟨S50000, .f32⟩ : BufTy).Contents (Elt F)),
    StableHlo.nullary main_cst_5 (constant S_ .f32 0x00000000#32),
    StableHlo.TRef.unary (.of main_cst_5) main_call0.v0 id,
    StableHlo.TRef.unary main_call0.v0 main_call0.v1 (broadcastInDim S50000 ![] bcast_S_S50000),
    StableHlo.TRef.ternary (.of main_v17) (.of main_v20) main_call0.v1 main_call0.v2 select ]

/-- Operations 32 … 51 of 118: the per-edge normalization: the inverse square roots gathered at both ends, times the weight (%22 … %37). -/
def opsC : List (HloOp τ sig (Elt F)) :=
  [ StableHlo.nullary main_c (constantI S_ 32 0#32),
    StableHlo.unary main_c main_v22 (broadcastInDim S650000 ![] bcast_S_S650000 : (⟨S_, .i32⟩ : BufTy).Contents (Elt F) → (⟨S650000, .i32⟩ : BufTy).Contents (Elt F)),
    StableHlo.binary main_v7 main_v22 main_v23 (cmpi .slt : (⟨S650000, .i32⟩ : BufTy).Contents (Elt F) → (⟨S650000, .i32⟩ : BufTy).Contents (Elt F) → (⟨S650000, .i1⟩ : BufTy).Contents (Elt F)),
    StableHlo.nullary main_c_6 (constantI S_ 32 50000#32),
    StableHlo.unary main_c_6 main_v24 (broadcastInDim S650000 ![] bcast_S_S650000 : (⟨S_, .i32⟩ : BufTy).Contents (Elt F) → (⟨S650000, .i32⟩ : BufTy).Contents (Elt F)),
    StableHlo.binary main_v7 main_v24 main_v25 (addi : (⟨S650000, .i32⟩ : BufTy).Contents (Elt F) → (⟨S650000, .i32⟩ : BufTy).Contents (Elt F) → (⟨S650000, .i32⟩ : BufTy).Contents (Elt F)),
    StableHlo.ternary main_v23 main_v25 main_v7 main_v26 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v26 main_v27 (broadcastInDim S650000x1 ![0] bcast_S650000_S650000x1_0 : (⟨S650000, .i32⟩ : BufTy).Contents (Elt F) → (⟨S650000x1, .i32⟩ : BufTy).Contents (Elt F)),
    StableHlo.binary main_v21 main_v27 main_v28 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v28 main_v12 main_v29 (mulf : (⟨S650000, .f32⟩ : BufTy).Contents (Elt F) → (⟨S650000, .f32⟩ : BufTy).Contents (Elt F) → (⟨S650000, .f32⟩ : BufTy).Contents (Elt F)),
    StableHlo.nullary main_c_7 (constantI S_ 32 0#32),
    StableHlo.unary main_c_7 main_v30 (broadcastInDim S650000 ![] bcast_S_S650000 : (⟨S_, .i32⟩ : BufTy).Contents (Elt F) → (⟨S650000, .i32⟩ : BufTy).Contents (Elt F)),
    StableHlo.binary main_v10 main_v30 main_v31 (cmpi .slt : (⟨S650000, .i32⟩ : BufTy).Contents (Elt F) → (⟨S650000, .i32⟩ : BufTy).Contents (Elt F) → (⟨S650000, .i1⟩ : BufTy).Contents (Elt F)),
    StableHlo.nullary main_c_8 (constantI S_ 32 50000#32),
    StableHlo.unary main_c_8 main_v32 (broadcastInDim S650000 ![] bcast_S_S650000 : (⟨S_, .i32⟩ : BufTy).Contents (Elt F) → (⟨S650000, .i32⟩ : BufTy).Contents (Elt F)),
    StableHlo.binary main_v10 main_v32 main_v33 (addi : (⟨S650000, .i32⟩ : BufTy).Contents (Elt F) → (⟨S650000, .i32⟩ : BufTy).Contents (Elt F) → (⟨S650000, .i32⟩ : BufTy).Contents (Elt F)),
    StableHlo.ternary main_v31 main_v33 main_v10 main_v34 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v34 main_v35 (broadcastInDim S650000x1 ![0] bcast_S650000_S650000x1_0 : (⟨S650000, .i32⟩ : BufTy).Contents (Elt F) → (⟨S650000x1, .i32⟩ : BufTy).Contents (Elt F)),
    StableHlo.binary main_v21 main_v35 main_v36 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    StableHlo.binary main_v29 main_v36 main_v37 (mulf : (⟨S650000, .f32⟩ : BufTy).Contents (Elt F) → (⟨S650000, .f32⟩ : BufTy).Contents (Elt F) → (⟨S650000, .f32⟩ : BufTy).Contents (Elt F)) ]

/-- Operations 52 … 62 of 118: the matrix product, and its rows gathered at the edges' row indices (%38 … %46). -/
def opsD1 : List (HloOp τ sig (Elt F)) :=
  [ StableHlo.binary main_arg0 main_arg3 main_v38 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v37 main_v39 (broadcastInDim S650000x1 ![0] bcast_S650000_S650000x1_0 : (⟨S650000, .f32⟩ : BufTy).Contents (Elt F) → (⟨S650000x1, .f32⟩ : BufTy).Contents (Elt F)),
    StableHlo.nullary main_c_9 (constantI S_ 32 0#32),
    StableHlo.unary main_c_9 main_v40 (broadcastInDim S650000 ![] bcast_S_S650000 : (⟨S_, .i32⟩ : BufTy).Contents (Elt F) → (⟨S650000, .i32⟩ : BufTy).Contents (Elt F)),
    StableHlo.binary main_v7 main_v40 main_v41 (cmpi .slt : (⟨S650000, .i32⟩ : BufTy).Contents (Elt F) → (⟨S650000, .i32⟩ : BufTy).Contents (Elt F) → (⟨S650000, .i1⟩ : BufTy).Contents (Elt F)),
    StableHlo.nullary main_c_10 (constantI S_ 32 50000#32),
    StableHlo.unary main_c_10 main_v42 (broadcastInDim S650000 ![] bcast_S_S650000 : (⟨S_, .i32⟩ : BufTy).Contents (Elt F) → (⟨S650000, .i32⟩ : BufTy).Contents (Elt F)),
    StableHlo.binary main_v7 main_v42 main_v43 (addi : (⟨S650000, .i32⟩ : BufTy).Contents (Elt F) → (⟨S650000, .i32⟩ : BufTy).Contents (Elt F) → (⟨S650000, .i32⟩ : BufTy).Contents (Elt F)),
    StableHlo.ternary main_v41 main_v43 main_v7 main_v44 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    StableHlo.unary main_v44 main_v45 (broadcastInDim S650000x1 ![0] bcast_S650000_S650000x1_0 : (⟨S650000, .i32⟩ : BufTy).Contents (Elt F) → (⟨S650000x1, .i32⟩ : BufTy).Contents (Elt F)),
    StableHlo.binary main_v38 main_v45 main_v46 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)) ]

/-- Operations 63 … 71 of 118: the scaled rows scatter-added at the column indices, plus the bias (%47 … %54). -/
def opsD2 : List (HloOp τ sig (Elt F)) :=
  [ StableHlo.unary main_v39 main_v47 (broadcastInDim S650000x128 ![0, 1] bcast_S650000x1_S650000x128_0_1 : (⟨S650000x1, .f32⟩ : BufTy).Contents (Elt F) → (⟨S650000x128, .f32⟩ : BufTy).Contents (Elt F)),
    StableHlo.binary main_v47 main_v46 main_v48 (mulf : (⟨S650000x128, .f32⟩ : BufTy).Contents (Elt F) → (⟨S650000x128, .f32⟩ : BufTy).Contents (Elt F) → (⟨S650000x128, .f32⟩ : BufTy).Contents (Elt F)),
    StableHlo.nullary main_cst_11 (constant S_ .f32 0x00000000#32),
    StableHlo.unary main_cst_11 main_v49 (broadcastInDim S50000x128 ![] bcast_S_S50000x128 : (⟨S_, .f32⟩ : BufTy).Contents (Elt F) → (⟨S50000x128, .f32⟩ : BufTy).Contents (Elt F)),
    StableHlo.unary main_v10 main_v50 (broadcastInDim S650000x1 ![0] bcast_S650000_S650000x1_0 : (⟨S650000, .i32⟩ : BufTy).Contents (Elt F) → (⟨S650000x1, .i32⟩ : BufTy).Contents (Elt F)),
    StableHlo.ternary main_v49 main_v50 main_v48 main_v51 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    StableHlo.unary main_arg4 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)) ]

/-- Operations 72 … 76 of 118: the column means (%55 … %57). -/
def opsE1 : List (HloOp τ sig (Elt F)) :=
  [ StableHlo.nullary main_cst_12 (constant S_ .f32 0x00000000#32),
    StableHlo.binary main_v54 main_cst_12 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_13 (constant S_ .f32 0x47435000#32),
    StableHlo.unary main_cst_13 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)) ]

/-- Operations 77 … 99 of 118: the column variances: the outlined variance with its outlined select (%58). -/
def opsE2 : List (HloOp τ sig (Elt F)) :=
  [ StableHlo.nullary main_c_14 (constantI S_ 32 0#32),
    StableHlo.TRef.nullary main_call1.cst (constant S_ .f32 0x00000000#32),
    StableHlo.TRef.binary (.of main_v54) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v54) main_call1.v4 main_call1.v5 subf,
    StableHlo.TRef.binary main_call1.v5 main_call1.v5 main_call1.v6 mulf,
    StableHlo.TRef.unary (.of main_c_14) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- Operations 100 … 118 of 118: normalize, scale, shift, and the outlined rectifier (%59 … %74). -/
def opsF : List (HloOp τ sig (Elt F)) :=
  [ StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v60 main_v61 (subf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3727C5AC#32),
    StableHlo.unary main_cst_15 main_v62 (broadcastInDim S128 ![] bcast_S_S128 : (⟨S_, .f32⟩ : BufTy).Contents (Elt F) → (⟨S128, .f32⟩ : BufTy).Contents (Elt F)),
    StableHlo.binary main_v58 main_v62 main_v63 (addf : (⟨S128, .f32⟩ : BufTy).Contents (Elt F) → (⟨S128, .f32⟩ : BufTy).Contents (Elt F) → (⟨S128, .f32⟩ : BufTy).Contents (Elt F)),
    StableHlo.unary main_v63 main_v64 (Host.rsqrt : (⟨S128, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg5 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v67 main_v70 (mulf : (⟨S50000x128, .f32⟩ : BufTy).Contents (Elt F) → (⟨S50000x128, .f32⟩ : BufTy).Contents (Elt F) → (⟨S50000x128, .f32⟩ : BufTy).Contents (Elt F)),
    StableHlo.unary main_arg6 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v73) main_call2.v0 main_call2.v1 maximumf ]

/-- The operations of @main's first printed window, and of its second. -/
def ops0 : List (HloOp τ sig (Elt F)) := opsA ++ (opsB ++ (opsC ++ opsD1))
def ops1 : List (HloOp τ sig (Elt F)) := opsD2 ++ (opsE1 ++ (opsE2 ++ opsF))
/-- @main's 118 operations, in order. -/
def ops : List (HloOp τ sig (Elt F)) := ops0 ++ ops1

set_option maxRecDepth 8192 in
set_option maxHeartbeats 4000000 in
/-- The first window is its straight line: the outlined select unfolds at its call (sequencing in this
    program monad re-associates by computation). -/
theorem main_part0_eq (c : Dev nD) : main_part0 (F := F) c = seq ops0 := rfl
set_option maxRecDepth 8192 in
set_option maxHeartbeats 4000000 in
theorem main_part1_eq (c : Dev nD) : main_part1 (F := F) c = seq ops1 := rfl
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., unary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., binary_bufs_sub ..⟩
theorem opsB_sub : (opsB : List (HloOp τ sig (Elt F))).Forall fun op => op.bufs ⊆ tcRefs τ sig :=
  ⟨nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsD1_sub : (opsD1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem opsD2_sub : (opsD2 : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., unary_bufs_sub .., binary_bufs_sub ..⟩
theorem opsE1_sub : (opsE1 : List (HloOp τ sig (Elt F))).Forall fun op => op.bufs ⊆ tcRefs τ sig :=
  ⟨nullary_bufs_sub .., binary_bufs_sub .., nullary_bufs_sub .., unary_bufs_sub .., binary_bufs_sub ..⟩
theorem opsE2_sub : (opsE2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem opsF_sub : (opsF : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h) | (h | h | h | h)
    exacts [List.forall_iff_forall_mem.mp opsA_sub op h, List.forall_iff_forall_mem.mp opsB_sub op h,
      List.forall_iff_forall_mem.mp opsC_sub op h, List.forall_iff_forall_mem.mp opsD1_sub op h,
      List.forall_iff_forall_mem.mp opsD2_sub op h, List.forall_iff_forall_mem.mp opsE1_sub op h,
      List.forall_iff_forall_mem.mp opsE2_sub op h, List.forall_iff_forall_mem.mp opsF_sub op h]

/-! ## The stages, as pure functions of arrays

Each is the composition of the printed operations of one stretch, in the printed argument order. -/

/-- %0: the two edge lists side by side. -/
def edges (a1 : (⟨S2x500000, .i32⟩ : BufTy).Contents (Elt F)) (a2 : (⟨S2x100000, .i32⟩ : BufTy).Contents (Elt F)) : (⟨S2x600000, .i32⟩ : BufTy).Contents (Elt F) :=
  concatenate S2x600000 1 [⟨S2x500000, a1⟩, ⟨S2x100000, a2⟩] concatenates_S2x500000_S2x100000_S2x600000_d1

/-- %7: the edges' row indices (row 0 of the edge list) followed by one self loop per node (%4, the iota). -/
def rowIdx (a1 : (⟨S2x500000, .i32⟩ : BufTy).Contents (Elt F)) (a2 : (⟨S2x100000, .i32⟩ : BufTy).Contents (Elt F)) : (⟨S650000, .i32⟩ : BufTy).Contents (Elt F) :=
  concatenate S650000 0
    [⟨S600000, shapeCast S600000 (extractStridedSlice S1x600000 ![0, 0] (edges (F := F) a1 a2) slices_S2x600000_S1x600000_0_0) shapeCasts_S1x600000_S600000⟩,
     ⟨S50000, iotaInDim S50000 32 0⟩] concatenates_S600000_S50000_S650000_d0

/-- %10: the edges' column indices (row 1 of the edge list) followed by the self loops. -/
def colIdx (a1 : (⟨S2x500000, .i32⟩ : BufTy).Contents (Elt F)) (a2 : (⟨S2x100000, .i32⟩ : BufTy).Contents (Elt F)) : (⟨S650000, .i32⟩ : BufTy).Contents (Elt F) :=
  concatenate S650000 0
    [⟨S600000, shapeCast S600000 (extractStridedSlice S1x600000 ![1, 0] (edges (F := F) a1 a2) slices_S2x600000_S1x600000_1_0) shapeCasts_S1x600000_S600000⟩,
     ⟨S50000, iotaInDim S50000 32 0⟩] concatenates_S600000_S50000_S650000_d0

/-- %12: the edge weights: one on the first edge list, zero on the second, one on the self loops. -/
def weights : FVec F S650000 .f32 :=
  concatenate S650000 0
    [⟨S600000, concatenate S600000 0
        [⟨S500000, broadcastInDim S500000 ![] bcast_S_S500000 (constant (F := F) S_ .f32 0x3F800000#32)⟩,
         ⟨S100000, broadcastInDim S100000 ![] bcast_S_S100000 (constant (F := F) S_ .f32 0x00000000#32)⟩]
        concatenates_S500000_S100000_S600000_d0⟩,
     ⟨S50000, broadcastInDim S50000 ![] bcast_S_S50000 (constant (F := F) S_ .f32 0x3F800000#32)⟩]
    concatenates_S600000_S50000_S650000_d0

/-- %15: the weighted in-degree: the weights scatter-added at the column indices into zeros. -/
def degOf (col : (⟨S650000, .i32⟩ : BufTy).Contents (Elt F)) (w : FVec F S650000 .f32) : FVec F S50000 .f32 :=
  Host.scatterAdd scatter_S50000_S650000x1_S650000_n_0_0_1
    (broadcastInDim S50000 ![] bcast_S_S50000 (constant (F := F) S_ .f32 0x00000000#32))
    (broadcastInDim S650000x1 ![0] bcast_S650000_S650000x1_0 col) w

/-- %21: where the degree is positive, the inverse square root of the degree (floored at 1e-12), elsewhere zero. -/
def disOf (col : (⟨S650000, .i32⟩ : BufTy).Contents (Elt F)) (w : FVec F S650000 .f32) : FVec F S50000 .f32 :=
  select (cmpf .ogt (degOf col w) (broadcastInDim S50000 ![] bcast_S_S50000 (constant (F := F) S_ .f32 0x00000000#32)))
    (Host.rsqrt (maximumf (degOf col w) (broadcastInDim S50000 ![] bcast_S_S50000 (constant (F := F) S_ .f32 0x2B8CBCCC#32))))
    (broadcastInDim S50000 ![] bcast_S_S50000 (id (constant (F := F) S_ .f32 0x00000000#32)))

/-- %22 … %27 (and %30 … %35, %40 … %45): an index list with its negative entries moved up by the node count, as a
    column of index vectors. -/
def wrapIdx (i : (⟨S650000, .i32⟩ : BufTy).Contents (Elt F)) : (⟨S650000x1, .i32⟩ : BufTy).Contents (Elt F) :=
  broadcastInDim S650000x1 ![0] bcast_S650000_S650000x1_0
    (select (cmpi .slt i (broadcastInDim S650000 ![] bcast_S_S650000 (constantI S_ 32 0#32)))
      (addi i (broadcastInDim S650000 ![] bcast_S_S650000 (constantI S_ 32 50000#32))) i)

/-- %37: the per-edge normalization: the inverse square root at the row end, times the weight, times the one at the
    column end. -/
def normOf (row col : (⟨S650000, .i32⟩ : BufTy).Contents (Elt F)) (w : FVec F S650000 .f32) (dis : FVec F S50000 .f32) : FVec F S650000 .f32 :=
  mulf (mulf (Host.gather gather_S50000_S650000x1_S650000_n_0_n_n_0_1_1 dis (wrapIdx (F := F) row)) w)
    (Host.gather gather_S50000_S650000x1_S650000_n_0_n_n_0_1_1 dis (wrapIdx (F := F) col))

/-- %39: the normalization as a column. -/
def normCol (norm : FVec F S650000 .f32) : FVec F S650000x1 .f32 :=
  broadcastInDim S650000x1 ![0] bcast_S650000_S650000x1_0 norm

/-- %46: the rows of the product gathered at the edges' row indices. -/
def msgOf (h : FVec F S50000x128 .f32) (row : (⟨S650000, .i32⟩ : BufTy).Contents (Elt F)) : FVec F S650000x128 .f32 :=
  Host.gather gather_S50000x128_S650000x1_S650000x128_1_0_n_n_0_1_1128 h (wrapIdx (F := F) row)

/-- %52, %53 (and %59, %60; %65, %66; %68, %69; %71, %72): a vector over the columns repeated down the rows. -/
def rowBcast (x : FVec F S128 .f32) : FVec F S50000x128 .f32 :=
  broadcastInDim S50000x128 ![0, 1] bcast_S1x128_S50000x128_0_1 (broadcastInDim S1x128 ![1] bcast_S128_S1x128_1 x)

/-- %54: the gathered rows, each scaled by its edge's normalization, scatter-added at the column indices into zeros,
    plus the bias. -/
def aggStage (nc : FVec F S650000x1 .f32) (msg : FVec F S650000x128 .f32) (col : (⟨S650000, .i32⟩ : BufTy).Contents (Elt F)) (a4 : FVec F S128 .f32) :
    FVec F S50000x128 .f32 :=
  addf
    (Host.scatterAdd scatter_S50000x128_S650000x1_S650000x128_1_0_0_1
      (broadcastInDim S50000x128 ![] bcast_S_S50000x128 (constant (F := F) S_ .f32 0x00000000#32))
      (broadcastInDim S650000x1 ![0] bcast_S650000_S650000x1_0 col)
      (mulf (broadcastInDim S650000x128 ![0, 1] bcast_S650000x1_S650000x128_0_1 nc) msg))
    (rowBcast a4)

/-- @main's operations %0 … %54 composed, with `h` standing for the matrix product %38. -/
def aggOf (h : FVec F S50000x128 .f32) (a1 : (⟨S2x500000, .i32⟩ : BufTy).Contents (Elt F)) (a2 : (⟨S2x100000, .i32⟩ : BufTy).Contents (Elt F)) (a4 : FVec F S128 .f32) :
    FVec F S50000x128 .f32 :=
  aggStage
    (normCol (normOf (rowIdx (F := F) a1 a2) (colIdx (F := F) a1 a2) weights (disOf (colIdx (F := F) a1 a2) weights)))
    (msgOf h (rowIdx (F := F) a1 a2)) (colIdx (F := F) a1 a2) a4

/-- %57: the column means: the column sums over 50000. -/
def meanOf (agg : FVec F S50000x128 .f32) : FVec F S128 .f32 :=
  Host.divf (Host.reduceAdd agg (constant (F := F) S_ .f32 0x00000000#32) reducesTo_S50000x128_S128_d0 h_S_)
    (broadcastInDim S128 ![] bcast_S_S128 (constant (F := F) S_ .f32 0x47435000#32))

/-- The outlined variance's %5: the array less its column means (column sums over 50000, as a row, repeated). -/
def centered (agg : FVec F S50000x128 .f32) : FVec F S50000x128 .f32 :=
  subf agg
    (broadcastInDim S50000x128 ![0, 1] bcast_S1x128_S50000x128_0_1
      (Host.divf
        (broadcastInDim S1x128 ![1] bcast_S128_S1x128_1
          (Host.reduceAdd agg (constant (F := F) S_ .f32 0x00000000#32) reducesTo_S50000x128_S128_d0 h_S_))
        (broadcastInDim S1x128 ![] bcast_S_S1x128 (constant (F := F) S_ .f32 0x47435000#32))))

/-- The outlined variance's %8: the divisor, 50000 less the correction (the integer 0, converted). -/
def varDenom : FVec F S_ .f32 :=
  subf (constant (F := F) S_ .f32 0x47435000#32) (sitofp .f32 (constantI S_ 32 0#32))

/-- %58: the column variances: the column sums of the squared centered array over the divisor where the divisor is
    positive, elsewhere the not-a-number constant. -/
def varOf (agg : FVec F S50000x128 .f32) : FVec F S128 .f32 :=
  select (broadcastInDim S128 ![] bcast_S_S128 (cmpf .ogt (varDenom (F := F)) (constant (F := F) S_ .f32 0x00000000#32)))
    (Host.divf
      (Host.reduceAdd (mulf (centered agg) (centered agg)) (constant (F := F) S_ .f32 0x00000000#32)
        reducesTo_S50000x128_S128_d0 h_S_)
      (broadcastInDim S128 ![] bcast_S_S128 (varDenom (F := F))))
    (broadcastInDim S128 ![] bcast_S_S128 (id (constant (F := F) S_ .f32 0x7FC00000#32)))

/-- %74: scale times the centered array times the inverse square root of variance plus 1e-5, plus the shift,
    rectified. -/
def bnStage (agg : FVec F S50000x128 .f32) (mean var a5 a6 : FVec F S128 .f32) : FVec F S50000x128 .f32 :=
  maximumf
    (addf
      (mulf (rowBcast a5)
        (mulf (subf agg (rowBcast mean))
          (rowBcast (Host.rsqrt (addf var (broadcastInDim S128 ![] bcast_S_S128 (constant (F := F) S_ .f32 0x3727C5AC#32)))))))
      (rowBcast a6))
    (broadcastInDim S50000x128 ![] bcast_S_S50000x128 (constant (F := F) S_ .f32 0x00000000#32))

/-- @main's operations %55 … %74 composed. -/
def bnOf (agg : FVec F S50000x128 .f32) (a5 a6 : FVec F S128 .f32) : FVec F S50000x128 .f32 :=
  bnStage agg (meanOf agg) (varOf agg) a5 a6

/-! ## Each stretch read back -/

/-- The buffers stretch A writes. -/
abbrev opsA_W : List (Ref sig .tc) := [main_v0, main_cst, main_v1, main_cst_0, main_v2, main_v3, main_v4, main_v5, main_v6, main_v7, main_v8, main_v9, main_v10, main_cst_1, main_v11, main_v12]
set_option maxRecDepth 4096 in
theorem opsA_writes : (opsA : List (HloOp τ sig (Elt F))).Forall fun op => op.writes ⊆ (opsA_W.map (Proc.devRef (τ := τ) .tc)).toFinset := by
  simp only [opsA, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch A does not write keeps its contents through it. -/
theorem A_keep (W : Valuation τ sig (Elt F)) (r : Ref sig .tc) (h : r ∉ opsA_W) :
    after opsA W (no_index (Proc.devRef .tc r)) = W (Proc.devRef .tc r) :=
  after_of_writes_sub opsA W opsA_writes h

/-- The buffers stretch B writes. -/
abbrev opsB_W : List (Ref sig .tc) := [main_cst_2, main_v13, main_v14, main_v15, main_cst_3, main_v16, main_v17, main_cst_4, main_v18, main_v19, main_v20, main_cst_5, main_call0_v0, main_call0_v1, main_v21]
set_option maxRecDepth 4096 in
theorem opsB_writes : (opsB : List (HloOp τ sig (Elt F))).Forall fun op => op.writes ⊆ (opsB_W.map (Proc.devRef (τ := τ) .tc)).toFinset := by
  simp only [opsB, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch B does not write keeps its contents through it. -/
theorem B_keep (W : Valuation τ sig (Elt F)) (r : Ref sig .tc) (h : r ∉ opsB_W) :
    after opsB W (no_index (Proc.devRef .tc r)) = W (Proc.devRef .tc r) :=
  after_of_writes_sub opsB W opsB_writes h

/-- The buffers stretch C writes. -/
abbrev opsC_W : List (Ref sig .tc) := [main_c, main_v22, main_v23, main_c_6, main_v24, main_v25, main_v26, main_v27, main_v28, main_v29, main_c_7, main_v30, main_v31, main_c_8, main_v32, main_v33, main_v34, main_v35, main_v36, main_v37]
set_option maxRecDepth 4096 in
theorem opsC_writes : (opsC : List (HloOp τ sig (Elt F))).Forall fun op => op.writes ⊆ (opsC_W.map (Proc.devRef (τ := τ) .tc)).toFinset := by
  simp only [opsC, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch C does not write keeps its contents through it. -/
theorem C_keep (W : Valuation τ sig (Elt F)) (r : Ref sig .tc) (h : r ∉ opsC_W) :
    after opsC W (no_index (Proc.devRef .tc r)) = W (Proc.devRef .tc r) :=
  after_of_writes_sub opsC W opsC_writes h

/-- The buffers stretch D1 writes. -/
abbrev opsD1_W : List (Ref sig .tc) := [main_v38, main_v39, main_c_9, main_v40, main_v41, main_c_10, main_v42, main_v43, main_v44, main_v45, main_v46]
set_option maxRecDepth 4096 in
theorem opsD1_writes : (opsD1 : List (HloOp τ sig (Elt F))).Forall fun op => op.writes ⊆ (opsD1_W.map (Proc.devRef (τ := τ) .tc)).toFinset := by
  simp only [opsD1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch D1 does not write keeps its contents through it. -/
theorem D1_keep (W : Valuation τ sig (Elt F)) (r : Ref sig .tc) (h : r ∉ opsD1_W) :
    after opsD1 W (no_index (Proc.devRef .tc r)) = W (Proc.devRef .tc r) :=
  after_of_writes_sub opsD1 W opsD1_writes h

/-- The buffers stretch D2 writes. -/
abbrev opsD2_W : List (Ref sig .tc) := [main_v47, main_v48, main_cst_11, main_v49, main_v50, main_v51, main_v52, main_v53, main_v54]
set_option maxRecDepth 4096 in
theorem opsD2_writes : (opsD2 : List (HloOp τ sig (Elt F))).Forall fun op => op.writes ⊆ (opsD2_W.map (Proc.devRef (τ := τ) .tc)).toFinset := by
  simp only [opsD2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch D2 does not write keeps its contents through it. -/
theorem D2_keep (W : Valuation τ sig (Elt F)) (r : Ref sig .tc) (h : r ∉ opsD2_W) :
    after opsD2 W (no_index (Proc.devRef .tc r)) = W (Proc.devRef .tc r) :=
  after_of_writes_sub opsD2 W opsD2_writes h

/-- The buffers stretch E1 writes. -/
abbrev opsE1_W : List (Ref sig .tc) := [main_cst_12, main_v55, main_cst_13, main_v56, main_v57]
set_option maxRecDepth 4096 in
theorem opsE1_writes : (opsE1 : List (HloOp τ sig (Elt F))).Forall fun op => op.writes ⊆ (opsE1_W.map (Proc.devRef (τ := τ) .tc)).toFinset := by
  simp only [opsE1, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch E1 does not write keeps its contents through it. -/
theorem E1_keep (W : Valuation τ sig (Elt F)) (r : Ref sig .tc) (h : r ∉ opsE1_W) :
    after opsE1 W (no_index (Proc.devRef .tc r)) = W (Proc.devRef .tc r) :=
  after_of_writes_sub opsE1 W opsE1_writes h

/-- The buffers stretch E2 writes. -/
abbrev opsE2_W : List (Ref sig .tc) := [main_c_14, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v58]
set_option maxRecDepth 4096 in
theorem opsE2_writes : (opsE2 : List (HloOp τ sig (Elt F))).Forall fun op => op.writes ⊆ (opsE2_W.map (Proc.devRef (τ := τ) .tc)).toFinset := by
  simp only [opsE2, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch E2 does not write keeps its contents through it. -/
theorem E2_keep (W : Valuation τ sig (Elt F)) (r : Ref sig .tc) (h : r ∉ opsE2_W) :
    after opsE2 W (no_index (Proc.devRef .tc r)) = W (Proc.devRef .tc r) :=
  after_of_writes_sub opsE2 W opsE2_writes h

/-- The buffers stretch F writes. -/
abbrev opsF_W : List (Ref sig .tc) := [main_v59, main_v60, main_v61, main_cst_15, main_v62, main_v63, main_v64, main_v65, main_v66, main_v67, main_v68, main_v69, main_v70, main_v71, main_v72, main_v73, main_call2_cst, main_call2_v0, main_v74]
set_option maxRecDepth 4096 in
theorem opsF_writes : (opsF : List (HloOp τ sig (Elt F))).Forall fun op => op.writes ⊆ (opsF_W.map (Proc.devRef (τ := τ) .tc)).toFinset := by
  simp only [opsF, List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer stretch F does not write keeps its contents through it. -/
theorem F_keep (W : Valuation τ sig (Elt F)) (r : Ref sig .tc) (h : r ∉ opsF_W) :
    after opsF W (no_index (Proc.devRef .tc r)) = W (Proc.devRef .tc r) :=
  after_of_writes_sub opsF W opsF_writes h

theorem A_row (W : Valuation τ sig (Elt F)) :
    after opsA W (no_index (Proc.devRef .tc main_v7)) = rowIdx (F := F) (W (Proc.devRef .tc main_arg1)) (W (Proc.devRef .tc main_arg2)) := by
  simp only [opsA]
  after_results_simp
  rfl

theorem A_col (W : Valuation τ sig (Elt F)) :
    after opsA W (no_index (Proc.devRef .tc main_v10)) = colIdx (F := F) (W (Proc.devRef .tc main_arg1)) (W (Proc.devRef .tc main_arg2)) := by
  simp only [opsA]
  after_results_simp
  rfl

theorem A_w (W : Valuation τ sig (Elt F)) :
    after opsA W (no_index (Proc.devRef .tc main_v12)) = weights (F := F) := by
  simp only [opsA]
  after_results_simp
  rfl

theorem B_dis (W : Valuation τ sig (Elt F)) :
    after opsB W (no_index (Proc.devRef .tc main_v21)) = disOf (W (Proc.devRef .tc main_v10)) (W (Proc.devRef .tc main_v12)) := by
  simp only [opsB]
  after_results_simp
  rfl

theorem C_norm (W : Valuation τ sig (Elt F)) :
    after opsC W (no_index (Proc.devRef .tc main_v37)) = normOf (W (Proc.devRef .tc main_v7)) (W (Proc.devRef .tc main_v10)) (W (Proc.devRef .tc main_v12)) (W (Proc.devRef .tc main_v21)) := by
  simp only [opsC]
  after_results_simp
  rfl

theorem D1_nc (W : Valuation τ sig (Elt F)) :
    after opsD1 W (no_index (Proc.devRef .tc main_v39)) = normCol (W (Proc.devRef .tc main_v37)) := by
  simp only [opsD1]
  after_results_simp
  rfl

theorem D1_msg (W : Valuation τ sig (Elt F)) :
    after opsD1 W (no_index (Proc.devRef .tc main_v46)) = msgOf (Host.dotGeneral dot_S50000x128_S128x128_S50000x128_1_0_0_1_n_n none (W (Proc.devRef .tc main_arg0)) (W (Proc.devRef .tc main_arg3))) (W (Proc.devRef .tc main_v7)) := by
  simp only [opsD1]
  after_results_simp
  rfl

theorem D2_agg (W : Valuation τ sig (Elt F)) :
    after opsD2 W (no_index (Proc.devRef .tc main_v54)) = aggStage (W (Proc.devRef .tc main_v39)) (W (Proc.devRef .tc main_v46)) (W (Proc.devRef .tc main_v10)) (W (Proc.devRef .tc main_arg4)) := by
  simp only [opsD2]
  after_results_simp
  rfl

theorem E1_mean (W : Valuation τ sig (Elt F)) :
    after opsE1 W (no_index (Proc.devRef .tc main_v57)) = meanOf (W (Proc.devRef .tc main_v54)) := by
  simp only [opsE1]
  after_results_simp
  rfl

theorem E2_var (W : Valuation τ sig (Elt F)) :
    after opsE2 W (no_index (Proc.devRef .tc main_v58)) = varOf (W (Proc.devRef .tc main_v54)) := by
  simp only [opsE2]
  after_results_simp
  rfl

theorem F_out (W : Valuation τ sig (Elt F)) :
    after opsF W (no_index (Proc.devRef .tc main_v74)) = bnStage (W (Proc.devRef .tc main_v54)) (W (Proc.devRef .tc main_v57)) (W (Proc.devRef .tc main_v58)) (W (Proc.devRef .tc main_arg5)) (W (Proc.devRef .tc main_arg6)) := by
  simp only [opsF]
  after_results_simp
  rfl

/-! ## The whole run -/

/-- Folding a concatenation is folding its halves in turn. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The contents after all of @main's operations are the stretches' folds, nested in order. -/
theorem after_ops (V : Valuation τ sig (Elt F)) :
    after ops V = after opsF (after opsE2 (after opsE1 (after opsD2 (after opsD1 (after opsC (after opsB (after opsA V))))))) := by
  simp only [ops, ops0, ops1, after_app]

/-- The result buffer after the whole line: each stretch's result read at the buffers the earlier stretches left. -/
theorem out_eq (V : Valuation τ sig (Elt F)) :
    after ops V (Proc.devRef .tc main_v74)
      = bnOf (aggOf (Host.dotGeneral dot_S50000x128_S128x128_S50000x128_1_0_0_1_n_n none (V (Proc.devRef .tc main_arg0)) (V (Proc.devRef .tc main_arg3))) (V (Proc.devRef .tc main_arg1)) (V (Proc.devRef .tc main_arg2)) (V (Proc.devRef .tc main_arg4)))
          (V (Proc.devRef .tc main_arg5)) (V (Proc.devRef .tc main_arg6)) := by
  rw [after_ops]
  simp (disch := decide) only [F_out, E2_var, E1_mean, D2_agg, D1_nc, D1_msg, C_norm, B_dis, A_row, A_col, A_w,
    F_keep, E2_keep, E1_keep, D2_keep, D1_keep, C_keep, B_keep, A_keep]
  rfl

/-- A buffer no stretch writes keeps its contents through the whole line. -/
theorem keep_all (V : Valuation τ sig (Elt F)) (r : Ref sig .tc)
    (hA : r ∉ opsA_W) (hB : r ∉ opsB_W) (hC : r ∉ opsC_W) (hD1 : r ∉ opsD1_W) (hD2 : r ∉ opsD2_W) (hE1 : r ∉ opsE1_W) (hE2 : r ∉ opsE2_W) (hF : r ∉ opsF_W) :
    after ops V (Proc.devRef .tc r) = V (Proc.devRef .tc r) := by
  rw [after_ops, F_keep _ r hF, E2_keep _ r hE2, E1_keep _ r hE1, D2_keep _ r hD2, D1_keep _ r hD1, C_keep _ r hC,
    B_keep _ r hB, A_keep _ r hA]

/-- Every operation of the line determines its results. -/
theorem ops_fresh : ∀ op ∈ (ops : List (HloOp τ sig (Elt F))), op.fresh = ∅ := by
  intro op h
  simp only [ops, ops0, ops1, opsA, opsB, opsC, opsD1, opsD2, opsE1, opsE2, opsF, List.append_eq, List.cons_append, List.nil_append] at h
  repeat (cases h with | head => rfl | tail _ h => ?_)
  exact nomatch h

/-- On every device, for any float values, from any memory with zero counters: every weakly fair execution of @main
    terminates with the result buffer at the stages' composition over the arguments' launch contents (the matrix
    product of the first and fourth arguments standing as one array), and the seven arguments unchanged. -/
theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74)
        = bnOf (aggOf (Host.dotGeneral dot_S50000x128_S128x128_S50000x128_1_0_0_1_n_n none (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v74).trans (out_eq _),
      (h c main_arg0).trans (keep_all _ main_arg0 (by decide) (by decide) (by decide) (by decide) (by decide) (by decide) (by decide) (by decide)),
      (h c main_arg1).trans (keep_all _ main_arg1 (by decide) (by decide) (by decide) (by decide) (by decide) (by decide) (by decide) (by decide)),
      (h c main_arg2).trans (keep_all _ main_arg2 (by decide) (by decide) (by decide) (by decide) (by decide) (by decide) (by decide) (by decide)),
      (h c main_arg3).trans (keep_all _ main_arg3 (by decide) (by decide) (by decide) (by decide) (by decide) (by decide) (by decide) (by decide)),
      (h c main_arg4).trans (keep_all _ main_arg4 (by decide) (by decide) (by decide) (by decide) (by decide) (by decide) (by decide) (by decide)),
      (h c main_arg5).trans (keep_all _ main_arg5 (by decide) (by decide) (by decide) (by decide) (by decide) (by decide) (by decide) (by decide)),
      (h c main_arg6).trans (keep_all _ main_arg6 (by decide) (by decide) (by decide) (by decide) (by decide) (by decide) (by decide) (by decide))⟩)
    (run_seq scopedRefs_eq scopedSems_eq defs main (fun _ => ops) main_eq (fun _ => ops_sub) m ρ (fun _ => ops_fresh))

/-! ## The same at the extended reals, in the names of the chain module

The stages above, read at the extended reals with the index lists built from the two edge arguments, are the chain
module's definitions: both transcribe the same printed operations. -/

theorem edges_eq (a1 : (⟨S2x500000, .i32⟩ : BufTy).Contents (Elt Ideal)) (a2 : (⟨S2x100000, .i32⟩ : BufTy).Contents (Elt Ideal)) : edges (F := Ideal) a1 a2 = Chain.edges a1 a2 := rfl
theorem rowIdx_eq (a1 : (⟨S2x500000, .i32⟩ : BufTy).Contents (Elt Ideal)) (a2 : (⟨S2x100000, .i32⟩ : BufTy).Contents (Elt Ideal)) : rowIdx (F := Ideal) a1 a2 = Chain.rowIdx a1 a2 := rfl
theorem colIdx_eq (a1 : (⟨S2x500000, .i32⟩ : BufTy).Contents (Elt Ideal)) (a2 : (⟨S2x100000, .i32⟩ : BufTy).Contents (Elt Ideal)) : colIdx (F := Ideal) a1 a2 = Chain.colIdx a1 a2 := rfl
theorem weights_eq : weights (F := Ideal) = Chain.wts := rfl
theorem wrapIdx_eq (i : (⟨S650000, .i32⟩ : BufTy).Contents (Elt Ideal)) : wrapIdx (F := Ideal) i = Chain.wrapIdx i := rfl
theorem deg_eq (a1 : (⟨S2x500000, .i32⟩ : BufTy).Contents (Elt Ideal)) (a2 : (⟨S2x100000, .i32⟩ : BufTy).Contents (Elt Ideal)) : degOf (F := Ideal) (Chain.colIdx a1 a2) Chain.wts = Chain.deg a1 a2 := rfl
theorem dis_eq (a1 : (⟨S2x500000, .i32⟩ : BufTy).Contents (Elt Ideal)) (a2 : (⟨S2x100000, .i32⟩ : BufTy).Contents (Elt Ideal)) : disOf (F := Ideal) (Chain.colIdx a1 a2) Chain.wts = Chain.dis a1 a2 := rfl
theorem coef_eq (a1 : (⟨S2x500000, .i32⟩ : BufTy).Contents (Elt Ideal)) (a2 : (⟨S2x100000, .i32⟩ : BufTy).Contents (Elt Ideal)) :
    normOf (F := Ideal) (Chain.rowIdx a1 a2) (Chain.colIdx a1 a2) Chain.wts (Chain.dis a1 a2) = Chain.coef a1 a2 := rfl
theorem agg_eq (h : FVec Ideal S50000x128 .f32) (a1 : (⟨S2x500000, .i32⟩ : BufTy).Contents (Elt Ideal)) (a2 : (⟨S2x100000, .i32⟩ : BufTy).Contents (Elt Ideal)) (a4 : FVec Ideal S128 .f32) :
    aggOf (F := Ideal) h a1 a2 a4 = Chain.aggOf h a1 a2 a4 := rfl
theorem mean_eq (agg : FVec Ideal S50000x128 .f32) : meanOf (F := Ideal) agg = Chain.meanR agg := rfl
theorem centered_eq (agg : FVec Ideal S50000x128 .f32) : centered (F := Ideal) agg = Chain.centered agg := rfl
theorem varDenom_eq : varDenom (F := Ideal) = Chain.count := rfl
theorem var_eq (agg : FVec Ideal S50000x128 .f32) : varOf (F := Ideal) agg = Chain.varR agg := rfl
theorem bn_eq (agg : FVec Ideal S50000x128 .f32) (a5 a6 : FVec Ideal S128 .f32) : bnOf (F := Ideal) agg a5 a6 = Chain.bnOf agg a5 a6 := rfl

/-- At the extended reals, on every device, from any memory with zero counters: every weakly fair execution of @main
    terminates with the result buffer at the chain module's normalized aggregate of the arguments' launch contents
    (the matrix product of the first and fourth arguments standing as one array), and the seven arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74)
        = Chain.bnOf (Chain.aggOf (Host.dotGeneral (φ₁ := .f32) (φ₂ := .f32) dot_S50000x128_S128x128_S50000x128_1_0_0_1_n_n none (m ((c.tc : Thread nD τ).loc main_arg0)) (m ((c.tc : Thread nD τ).loc main_arg3))) (m ((c.tc : Thread nD τ).loc main_arg1)) (m ((c.tc : Thread nD τ).loc main_arg2)) (m ((c.tc : Thread nD τ).loc main_arg4)))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by rw [← agg_eq, ← bn_eq]; exact h c) (run' m ρ)

end Cert.ReferenceIdeal.HandRun

end
-- ==== Proof.KernelChain.lean ====
/-
  The host computation shared by the kernel's program and its reference, as pure functions of the argument arrays,
  stage by stage as the program's host operations compose them (extended reals; integers are 32-bit words).

  Edges: the positive and negative edge lists side by side (600000 columns), each of the two rows followed by the
  50000 self-loops 0, 1, …, 49999: `rowIdx` (sources) and `colIdx` (targets), 650000 entries each.
  Weights `wts`: 1 on the 500000 positive edges, 0 on the 100000 negative ones, 1 on the self-loops.
  Degree `deg n` = 0 + the sum of the weights of the edges whose target is n (an exact sum).
  `dis n` = (max (deg n) 1e-12)^(-1/2) where deg n > 0, else 0.
  `coef e` = dis(row e) · wts e · dis(col e), the two reads of `dis` through indices wrapped once (a negative
  index has 50000 added) and clamped by the gather.
  `aggOf h` (n, j) = 0 + the sum over the edges e with target n of coef e · h(row e, j), plus the bias b j.
-/
import proofs.«132868_j17540646437112_1_alg».proof.Proof.Gen.KernelIdeal
import Idealize.ShloMosaic.PureOps.Ideal

noncomputable section

namespace Cert.KernelIdeal.Chain

open Cert.KernelIdeal Cert.KernelIdeal.Facts₀ Cert.KernelIdeal.Facts Idealize.ShloMosaic

/-- Contents of an integer, float and boolean buffer of shape `S` at the extended reals. -/
abbrev CI (S : Shape) := IVec S 32
abbrev CF (S : Shape) := FVec Ideal S .f32
abbrev CB (S : Shape) := IVec S 1

/-- The two edge lists side by side: [2, 600000]. -/
def edges (a1 : CI S2x500000) (a2 : CI S2x100000) : CI S2x600000 :=
  concatenate S2x600000 1 [⟨S2x500000, a1⟩, ⟨S2x100000, a2⟩] concatenates_S2x500000_S2x100000_S2x600000_d1

/-- The self-loops 0, 1, …, 49999. -/
def loops : CI S50000 := iotaInDim S50000 32 0

/-- The sources: row 0 of the edges, then the self-loops. -/
def rowIdx (a1 : CI S2x500000) (a2 : CI S2x100000) : CI S650000 :=
  concatenate S650000 0 [⟨S600000, shapeCast S600000 (extractStridedSlice S1x600000 ![0, 0] (edges a1 a2) slices_S2x600000_S1x600000_0_0) shapeCasts_S1x600000_S600000⟩, ⟨S50000, loops⟩] concatenates_S600000_S50000_S650000_d0

/-- The targets: row 1 of the edges, then the self-loops. -/
def colIdx (a1 : CI S2x500000) (a2 : CI S2x100000) : CI S650000 :=
  concatenate S650000 0 [⟨S600000, shapeCast S600000 (extractStridedSlice S1x600000 ![1, 0] (edges a1 a2) slices_S2x600000_S1x600000_1_0) shapeCasts_S1x600000_S600000⟩, ⟨S50000, loops⟩] concatenates_S600000_S50000_S650000_d0

/-- The weights: ones, zeros, ones. -/
def wts : CF S650000 :=
  concatenate S650000 0 [⟨S600000, concatenate S600000 0 [⟨S500000, broadcastInDim S500000 ![] bcast_S_S500000 (constant (F := Ideal) S_ .f32 0x3F800000#32)⟩, ⟨S100000, broadcastInDim S100000 ![] bcast_S_S100000 (constant (F := Ideal) S_ .f32 0x00000000#32)⟩] concatenates_S500000_S100000_S600000_d0⟩, ⟨S50000, broadcastInDim S50000 ![] bcast_S_S50000 (constant (F := Ideal) S_ .f32 0x3F800000#32)⟩] concatenates_S600000_S50000_S650000_d0

/-- The degree: the weights summed at their targets, from zero. -/
def deg (a1 : CI S2x500000) (a2 : CI S2x100000) : CF S50000 :=
  Host.scatterAdd (F := Ideal) scatter_S50000_S650000x1_S650000_n_0_0_1 (broadcastInDim S50000 ![] bcast_S_S50000 (constant (F := Ideal) S_ .f32 0x00000000#32)) (broadcastInDim S650000x1 ![0] bcast_S650000_S650000x1_0 (colIdx a1 a2)) wts

/-- Where the degree is positive. -/
def degPos (a1 : CI S2x500000) (a2 : CI S2x100000) : CB S50000 :=
  cmpf .ogt (deg a1 a2) (broadcastInDim S50000 ![] bcast_S_S50000 (constant (F := Ideal) S_ .f32 0x00000000#32))

/-- The inverse square root of the degree kept away from zero. -/
def degRsqrt (a1 : CI S2x500000) (a2 : CI S2x100000) : CF S50000 :=
  Host.rsqrt (F := Ideal) (maximumf (deg a1 a2) (broadcastInDim S50000 ![] bcast_S_S50000 (constant (F := Ideal) S_ .f32 0x2B8CBCCC#32)))

/-- `dis`: the inverse square root where the degree is positive, zero elsewhere. -/
def dis (a1 : CI S2x500000) (a2 : CI S2x100000) : CF S50000 :=
  select (degPos a1 a2) (degRsqrt a1 a2) (broadcastInDim S50000 ![] bcast_S_S50000 (id (constant (F := Ideal) S_ .f32 0x00000000#32)))

/-- An index list wrapped once (a negative entry has 50000 added) as a column of start indices. -/
def wrapIdx (v : CI S650000) : CI S650000x1 :=
  broadcastInDim S650000x1 ![0] bcast_S650000_S650000x1_0 (select (cmpi .slt v (broadcastInDim S650000 ![] bcast_S_S650000 (constantI S_ 32 0#32))) (addi v (broadcastInDim S650000 ![] bcast_S_S650000 (constantI S_ 32 50000#32))) v)

/-- The edge coefficients dis(row) · w · dis(col). -/
def coef (a1 : CI S2x500000) (a2 : CI S2x100000) : CF S650000 :=
  mulf (mulf (Host.gather gather_S50000_S650000x1_S650000_n_0_n_n_0_1_1 (dis a1 a2) (wrapIdx (rowIdx a1 a2))) wts) (Host.gather gather_S50000_S650000x1_S650000_n_0_n_n_0_1_1 (dis a1 a2) (wrapIdx (colIdx a1 a2)))

/-- The messages coef e · h(row e, ·): [650000, 128]. -/
def msgs (h : CF S50000x128) (a1 : CI S2x500000) (a2 : CI S2x100000) : CF S650000x128 :=
  mulf (broadcastInDim S650000x128 ![0, 1] bcast_S650000x1_S650000x128_0_1 (broadcastInDim S650000x1 ![0] bcast_S650000_S650000x1_0 (coef a1 a2))) (Host.gather gather_S50000x128_S650000x1_S650000x128_1_0_n_n_0_1_1128 h (wrapIdx (rowIdx a1 a2)))

/-- The aggregate: the messages summed at their targets from zero, plus the bias along the rows. -/
def aggOf (h : CF S50000x128) (a1 : CI S2x500000) (a2 : CI S2x100000) (a4 : CF S128) : CF S50000x128 :=
  addf (Host.scatterAdd (F := Ideal) scatter_S50000x128_S650000x1_S650000x128_1_0_0_1 (broadcastInDim S50000x128 ![] bcast_S_S50000x128 (constant (F := Ideal) S_ .f32 0x00000000#32)) (broadcastInDim S650000x1 ![0] bcast_S650000_S650000x1_0 (colIdx a1 a2)) (msgs h a1 a2)) (broadcastInDim S50000x128 ![0, 1] bcast_S1x128_S50000x128_0_1 (broadcastInDim S1x128 ![1] bcast_S128_S1x128_1 a4))

/-- Column totals ([1,128]) as a vector, divided by the number of rows 50000: the column means. -/
def meanK (s : CF S1x128) : CF S128 :=
  Host.divf (F := Ideal) (shapeCast S128 s shapeCasts_S1x128_S128) (broadcastInDim S128 ![] bcast_S_S128 (constant (F := Ideal) S_ .f32 0x47435000#32))

/-- The column totals of the squares divided by 50000, minus the square of the column mean. -/
def varK (s ss : CF S1x128) : CF S128 :=
  subf (Host.divf (F := Ideal) (shapeCast S128 ss shapeCasts_S1x128_S128) (broadcastInDim S128 ![] bcast_S_S128 (constant (F := Ideal) S_ .f32 0x47435000#32))) (mulf (meanK s) (meanK s))

/-- A vector of 128 entries as a [1,128] row. -/
def asRow (v : CF S128) : CF S1x128 := shapeCast S1x128 v shapeCasts_S128_S1x128

end Cert.KernelIdeal.Chain

end
-- ==== Proof.KernelBoundary.lean ====
/-
  The kernel's buffers at the boundaries of its run, read back as the shared host functions of the argument
  arrays.  Between the launch and the first region the host computes the edge coefficients; between the first and
  the second region the aggregate from the first region's product; between the second and the third region the column
  means and variances from the second region's two rows of totals.  Every boundary's contents are the fold of the
  host operations over the contents before; a region changes only its own output arrays.
-/
import proofs.«132868_j17540646437112_1_alg».proof.Proof.Gen.KernelIdeal.Frame
import proofs.«132868_j17540646437112_1_alg».proof.Proof.KernelChain
import Idealize.ShloMosaic.Lib.StableHlo.Run

set_option maxRecDepth 16384

noncomputable section

namespace Cert.KernelIdeal.Boundary

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Up to the first region: the arguments as launched, the edge lists, the coefficients -/

theorem W3_arg0 (c : Dev nD) : W3 m ρ c (Proc.devRef .tc main_arg0) = m ((c : Thread nD τ).loc main_arg0) := by
  show after hostOps0_2 (after hostOps0_1 (after hostOps0 (W0 m ρ c))) (Proc.devRef .tc main_arg0) = _
  after_results_simp <;> rfl
theorem W3_arg3 (c : Dev nD) : W3 m ρ c (Proc.devRef .tc main_arg3) = m ((c : Thread nD τ).loc main_arg3) := by
  show after hostOps0_2 (after hostOps0_1 (after hostOps0 (W0 m ρ c))) (Proc.devRef .tc main_arg3) = _
  after_results_simp <;> rfl
theorem W3_arg4 (c : Dev nD) : W3 m ρ c (Proc.devRef .tc main_arg4) = m ((c : Thread nD τ).loc main_arg4) := by
  show after hostOps0_2 (after hostOps0_1 (after hostOps0 (W0 m ρ c))) (Proc.devRef .tc main_arg4) = _
  after_results_simp <;> rfl
theorem W3_arg5 (c : Dev nD) : W3 m ρ c (Proc.devRef .tc main_arg5) = m ((c : Thread nD τ).loc main_arg5) := by
  show after hostOps0_2 (after hostOps0_1 (after hostOps0 (W0 m ρ c))) (Proc.devRef .tc main_arg5) = _
  after_results_simp <;> rfl
theorem W3_arg6 (c : Dev nD) : W3 m ρ c (Proc.devRef .tc main_arg6) = m ((c : Thread nD τ).loc main_arg6) := by
  show after hostOps0_2 (after hostOps0_1 (after hostOps0 (W0 m ρ c))) (Proc.devRef .tc main_arg6) = _
  after_results_simp <;> rfl

/-- The sources. -/
theorem W3_v7 (c : Dev nD) : W3 m ρ c (Proc.devRef .tc main_v7) = rowIdx (m ((c : Thread nD τ).loc main_arg1)) (m ((c : Thread nD τ).loc main_arg2)) := by
  show after hostOps0_2 (after hostOps0_1 (after hostOps0 (W0 m ρ c))) (Proc.devRef .tc main_v7) = _
  after_results_simp <;> rfl
/-- The targets. -/
theorem W3_v10 (c : Dev nD) : W3 m ρ c (Proc.devRef .tc main_v10) = colIdx (m ((c : Thread nD τ).loc main_arg1)) (m ((c : Thread nD τ).loc main_arg2)) := by
  show after hostOps0_2 (after hostOps0_1 (after hostOps0 (W0 m ρ c))) (Proc.devRef .tc main_v10) = _
  after_results_simp <;> rfl
/-! The host operations before the first region, cut after the weights: the first sixteen build the edge lists and the
    weights (by concatenations), the last twelve the degree and its inverse square root. -/

variable {F : FTy → Type} [FloatOps F] in
/-- The operations up to the weights. -/
abbrev pre0 : List (HloOp τ sig (Elt F)) :=
  [ StableHlo.binary main_arg1 main_arg2 main_v0 ((fun a b => concatenate S2x600000 1 [⟨S2x500000, a⟩, ⟨S2x100000, b⟩] concatenates_S2x500000_S2x100000_S2x600000_d1) : (⟨S2x500000, .i32⟩ : BufTy).Contents (Elt F) → (⟨S2x100000, .i32⟩ : BufTy).Contents (Elt F) → (⟨S2x600000, .i32⟩ : BufTy).Contents (Elt F)),
    StableHlo.nullary main_cst (constant S_ .f32 0x3F800000#32),
    StableHlo.unary main_cst main_v1 (broadcastInDim S500000 ![] bcast_S_S500000 : (⟨S_, .f32⟩ : BufTy).Contents (Elt F) → (⟨S500000, .f32⟩ : BufTy).Contents (Elt F)),
    StableHlo.nullary main_cst_0 (constant S_ .f32 0x00000000#32),
    StableHlo.unary main_cst_0 main_v2 (broadcastInDim S100000 ![] bcast_S_S100000 : (⟨S_, .f32⟩ : BufTy).Contents (Elt F) → (⟨S100000, .f32⟩ : BufTy).Contents (Elt F)),
    StableHlo.binary main_v1 main_v2 main_v3 ((fun a b => concatenate S600000 0 [⟨S500000, a⟩, ⟨S100000, b⟩] concatenates_S500000_S100000_S600000_d0) : (⟨S500000, .f32⟩ : BufTy).Contents (Elt F) → (⟨S100000, .f32⟩ : BufTy).Contents (Elt F) → (⟨S600000, .f32⟩ : BufTy).Contents (Elt F)),
    StableHlo.nullary main_v4 (iotaInDim S50000 32 0),
    StableHlo.unary main_v0 main_v5 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v5 main_v6 rfl shapeCasts_S1x600000_S600000,
    StableHlo.binary main_v6 main_v4 main_v7 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.unary main_v0 main_v8 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v8 main_v9 rfl shapeCasts_S1x600000_S600000,
    StableHlo.binary main_v9 main_v4 main_v10 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    StableHlo.nullary main_cst_1 (constant S_ .f32 0x3F800000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v3 main_v11 main_v12 ((fun a b => concatenate S650000 0 [⟨S600000, a⟩, ⟨S50000, b⟩] concatenates_S600000_S50000_S650000_d0) : (⟨S600000, .f32⟩ : BufTy).Contents (Elt F) → (⟨S50000, .f32⟩ : BufTy).Contents (Elt F) → (⟨S650000, .f32⟩ : BufTy).Contents (Elt F)) ]
variable {F : FTy → Type} [FloatOps F] in
/-- The operations after the weights. -/
abbrev post0 : List (HloOp τ sig (Elt F)) :=
  [ StableHlo.nullary main_cst_2 (constant S_ .f32 0x00000000#32),
    StableHlo.unary main_cst_2 main_v13 (broadcastInDim S50000 ![] bcast_S_S50000 : (⟨S_, .f32⟩ : BufTy).Contents (Elt F) → (⟨S50000, .f32⟩ : BufTy).Contents (Elt F)),
    StableHlo.unary main_v10 main_v14 (broadcastInDim S650000x1 ![0] bcast_S650000_S650000x1_0 : (⟨S650000, .i32⟩ : BufTy).Contents (Elt F) → (⟨S650000x1, .i32⟩ : BufTy).Contents (Elt F)),
    StableHlo.ternary main_v13 main_v14 main_v12 main_v15 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    StableHlo.nullary main_cst_3 (constant S_ .f32 0x00000000#32),
    StableHlo.unary main_cst_3 main_v16 (broadcastInDim S50000 ![] bcast_S_S50000 : (⟨S_, .f32⟩ : BufTy).Contents (Elt F) → (⟨S50000, .f32⟩ : BufTy).Contents (Elt F)),
    StableHlo.binary main_v15 main_v16 main_v17 (cmpf .ogt : (⟨S50000, .f32⟩ : BufTy).Contents (Elt F) → (⟨S50000, .f32⟩ : BufTy).Contents (Elt F) → (⟨S50000, .i1⟩ : BufTy).Contents (Elt F)),
    StableHlo.nullary main_cst_4 (constant S_ .f32 0x2B8CBCCC#32),
    StableHlo.unary main_cst_4 main_v18 (broadcastInDim S50000 ![] bcast_S_S50000 : (⟨S_, .f32⟩ : BufTy).Contents (Elt F) → (⟨S50000, .f32⟩ : BufTy).Contents (Elt F)),
    StableHlo.binary main_v15 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (Host.rsqrt : (⟨S50000, .f32⟩ : BufTy).Contents (Elt F) → (⟨S50000, .f32⟩ : BufTy).Contents (Elt F)),
    StableHlo.nullary main_cst_5 (constant S_ .f32 0x00000000#32) ]
theorem hostOps0_cut : (hostOps0 : List (HloOp τ sig (Elt Ideal))) = pre0 ++ post0 := rfl

/-- The contents after the first sixteen operations. -/
abbrev U1 (c : Dev nD) : Valuation τ sig (Elt Ideal) := after pre0 (W0 m ρ c)

theorem U1_v7 (c : Dev nD) : U1 m ρ c (Proc.devRef .tc main_v7) = rowIdx (m ((c : Thread nD τ).loc main_arg1)) (m ((c : Thread nD τ).loc main_arg2)) := by
  show after pre0 (W0 m ρ c) (Proc.devRef .tc main_v7) = _
  after_results_simp <;> rfl
theorem U1_v10 (c : Dev nD) : U1 m ρ c (Proc.devRef .tc main_v10) = colIdx (m ((c : Thread nD τ).loc main_arg1)) (m ((c : Thread nD τ).loc main_arg2)) := by
  show after pre0 (W0 m ρ c) (Proc.devRef .tc main_v10) = _
  after_results_simp <;> rfl
theorem U1_v12 (c : Dev nD) : U1 m ρ c (Proc.devRef .tc main_v12) = wts := by
  show after pre0 (W0 m ρ c) (Proc.devRef .tc main_v12) = _
  after_results_simp <;> rfl

set_option maxHeartbeats 1600000 in
/-- The edge coefficients. -/
theorem W3_v37 (c : Dev nD) : W3 m ρ c (Proc.devRef .tc main_v37) = coef (m ((c : Thread nD τ).loc main_arg1)) (m ((c : Thread nD τ).loc main_arg2)) := by
  show after hostOps0_2 (after hostOps0_1 (after hostOps0 (W0 m ρ c))) (Proc.devRef .tc main_v37) = _
  rw [hostOps0_cut, StableHlo.after_append]
  have h7 := U1_v7 m ρ c
  have h10 := U1_v10 m ρ c
  have h12 := U1_v12 m ρ c
  unfold U1 at h7 h10 h12
  generalize after pre0 (W0 m ρ c) = U at h7 h10 h12 ⊢
  after_results_simp
  rw [h7, h10, h12]
  simp only [cast_eq]
  rfl

end Cert.KernelIdeal.Boundary

end
-- ==== Proof.KernelBoundary2.lean ====
/-
  The kernel's buffers at the later boundaries of its run: the aggregate after the first region's product, the second
  region's input and its two rows of totals, the column means and variances the host computes from them, and the third
  region's output.
-/
import proofs.«132868_j17540646437112_1_alg».proof.Proof.KernelBoundary

set_option maxRecDepth 16384

noncomputable section

namespace Cert.KernelIdeal.Boundary

open Cert.KernelIdeal Cert.KernelIdeal.Gen Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Through the first region to the aggregate -/

/-- A buffer the first region does not own keeps its contents across it; the arguments the later stretches read. -/
theorem W5_arg5 (c : Dev nD) : W5 m ρ c (Proc.devRef .tc main_arg5) = m ((c : Thread nD τ).loc main_arg5) := by
  show after hostOps1 (W4 m ρ c) (Proc.devRef .tc main_arg5) = _
  after_results_simp
  rw [W4_of_ne m ρ c main_arg5 (by decide)]
  exact W3_arg5 m ρ c
theorem W5_arg6 (c : Dev nD) : W5 m ρ c (Proc.devRef .tc main_arg6) = m ((c : Thread nD τ).loc main_arg6) := by
  show after hostOps1 (W4 m ρ c) (Proc.devRef .tc main_arg6) = _
  after_results_simp
  rw [W4_of_ne m ρ c main_arg6 (by decide)]
  exact W3_arg6 m ρ c

set_option maxHeartbeats 1600000 in
/-- The aggregate, from the first region's product. -/
theorem W5_v54 (c : Dev nD) : W5 m ρ c (Proc.devRef .tc main_v54)
    = aggOf (W4 m ρ c (Proc.devRef .tc main_v38)) (m ((c : Thread nD τ).loc main_arg1)) (m ((c : Thread nD τ).loc main_arg2)) (m ((c : Thread nD τ).loc main_arg4)) := by
  show after hostOps1 (W4 m ρ c) (Proc.devRef .tc main_v54) = _
  after_results_simp
  rw [W4_of_ne m ρ c main_v37 (by decide), W4_of_ne m ρ c main_v7 (by decide), W4_of_ne m ρ c main_v10 (by decide),
    W4_of_ne m ρ c main_arg4 (by decide), W3_v37, W3_v7, W3_v10, W3_arg4]
  rfl

/-! ## Through the second region to the third region's operands -/

/-- The aggregate is an input of the second region: unchanged across it. -/
theorem W6_v54 (c : Dev nD) : W6 m ρ c (Proc.devRef .tc main_v54) = W5 m ρ c (Proc.devRef .tc main_v54) :=
  (W6_arr m ρ c 0).trans (((dat1 (V5 m ρ) c).arrAt_in 0 rfl _).trans (A_eq1 (V5 m ρ) c 0))
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)

theorem W7_v54 (c : Dev nD) : W7 m ρ c (Proc.devRef .tc main_v54) = W6 m ρ c (Proc.devRef .tc main_v54) := by
  show after hostOps2 (W6 m ρ c) (Proc.devRef .tc main_v54) = _
  after_results_simp
/-- The column means as a row. -/
theorem W7_v64 (c : Dev nD) : W7 m ρ c (Proc.devRef .tc main_v64) = asRow (meanK (W6 m ρ c (Proc.devRef .tc main_v55_0))) := by
  show after hostOps2 (W6 m ρ c) (Proc.devRef .tc main_v64) = _
  after_results_simp <;> rfl
/-- The column variances as a row. -/
theorem W7_v65 (c : Dev nD) : W7 m ρ c (Proc.devRef .tc main_v65)
    = asRow (varK (W6 m ρ c (Proc.devRef .tc main_v55_0)) (W6 m ρ c (Proc.devRef .tc main_v55_1))) := by
  show after hostOps2 (W6 m ρ c) (Proc.devRef .tc main_v65) = _
  after_results_simp <;> rfl
theorem W7_v66 (c : Dev nD) : W7 m ρ c (Proc.devRef .tc main_v66) = asRow (m ((c : Thread nD τ).loc main_arg5)) := by
  show after hostOps2 (W6 m ρ c) (Proc.devRef .tc main_v66) = _
  after_results_simp
  rw [W6_arg5]
  rfl
theorem W7_v67 (c : Dev nD) : W7 m ρ c (Proc.devRef .tc main_v67) = asRow (m ((c : Thread nD τ).loc main_arg6)) := by
  show after hostOps2 (W6 m ρ c) (Proc.devRef .tc main_v67) = _
  after_results_simp
  rw [W6_arg6]
  rfl

/-- The regions' output arrays at their exits. -/
theorem W4_v38 (c : Dev nD) : W4 m ρ c (Proc.devRef .tc main_v38) = (dat0 (V3 m ρ) c).arrAt 2 cfg0.N := W4_arr m ρ c 2
theorem W6_v55_0 (c : Dev nD) : W6 m ρ c (Proc.devRef .tc main_v55_0) = (dat1 (V5 m ρ) c).arrAt 1 cfg1.N := W6_arr m ρ c 1
theorem W6_v55_1 (c : Dev nD) : W6 m ρ c (Proc.devRef .tc main_v55_1) = (dat1 (V5 m ρ) c).arrAt 2 cfg1.N := W6_arr m ρ c 2
theorem W8_v68 (c : Dev nD) : W8 m ρ c (Proc.devRef .tc main_v68) = (dat2 (V7 m ρ) c).arrAt 5 cfg2.N := W8_arr m ρ c 5

end Cert.KernelIdeal.Boundary

end
-- ==== Proof.StatsPieces.lean ====
/-
  The batch-statistics reduction, one grid point at a time, for any float values.

  The body keeps two [1,128] accumulators. At the first grid point it stores zeros into both, reads them back, and
  stores "zeros + column sums of the row block" (resp. "zeros + column sums of the squared row block"); at every later
  point it stores "what the point before left + column sums of the row block" (resp. of the squared block). This
  module reads those facts off the stores the body's run leaves: each accumulator after a point is one arithmetic
  term (`k1_pay4`, `k1_pay5`) of the point's row block and of the accumulator before.
-/
import proofs.«132868_j17540646437112_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.RegionValue

open Cert.KernelIdeal Cert.KernelIdeal.Gen

variable {F : FTy → Type} [FloatOps F]

theorem offsets_zero : (![0, 0] : Fin 2 → Nat) = fun _ => 0 := funext fun a => by fin_cases a <;> rfl

/-- A later point (not the first): the sum accumulator holding `xo1` is left at `xo1 + column sums of x`. -/
theorem later_sum (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero offsets_zero]
  simp only [View.readAt_eq_ld, h1.read_unread, h2.read_unread, View.ld_unit_zero (S := S5000x128) offsets_zero,
    View.ld_unit_zero (S := S1x128) offsets_zero]

/-- A later point: the sum-of-squares accumulator holding `xo2` is left at `xo2 + column sums of x * x`. -/
theorem later_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero offsets_zero]
  simp only [View.readAt_eq_ld, h1.read_unread, h3.read_unread, View.ld_unit_zero (S := S5000x128) offsets_zero,
    View.ld_unit_zero (S := S1x128) offsets_zero]

/-- The first point: the sum accumulator is zeroed, read back, and left at `zeros + column sums of x`. -/
theorem first_sum (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) offsets_zero, View.readCov_unit_zero (S := S1x128) _ offsets_zero]
  simp only [View.readAt_eq_ld, h1.read_unread, View.ld_unit_zero (S := S5000x128) offsets_zero,
    View.ld_unit_zero (S := S1x128) offsets_zero]

/-- The first point: the sum-of-squares accumulator is zeroed, read back, and left at `zeros + column sums of x * x`. -/
theorem first_sumsq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) offsets_zero, View.readCov_unit_zero (S := S1x128) _ offsets_zero]
  simp only [View.readAt_eq_ld, h1.read_unread, View.ld_unit_zero (S := S5000x128) offsets_zero,
    View.ld_unit_zero (S := S1x128) offsets_zero]

end Cert.KernelIdeal.RegionValue

end
-- ==== Proof.StatsPayload.lean ====
/-
  The arithmetic of one grid point of the batch-statistics reduction, read at one column, over the extended reals.

  With `x` the point's [5000,128] row block and `a` a [1,128] accumulator, the stored values are
      a + (column sums of x)          and          a + (column sums of x * x),
  so at column `q` they are  a(0,q) + ∑ k < 5000, x(k,q)   and   a(0,q) + ∑ k < 5000, x(k,q) * x(k,q).
  The zero block the first point stores reads 0 at every column.
-/
import proofs.«132868_j17540646437112_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx

namespace Cert.KernelIdeal.RegionValue

open Cert.KernelIdeal Cert.KernelIdeal.Gen

/-- Putting row `k` back in front of the column index `q` gives the block index (k, q). -/
theorem lift_col (h : S5000x128.Reduces [0] S128) (q : Fin 128) (k : Fin (S5000x128.size 0)) :
    h.lift (ix1 q) k = ix2 (⟨k.val, k.isLt⟩ : Fin 5000) q := by
  funext a; apply Fin.ext
  fin_cases a <;> rfl

/-- The lane reduction over the rows of a [5000,128] block, at column `q`: the sum of the column. -/
theorem colsum_apply (src : FVec Ideal S5000x128 .f32) (hφ : FKind.Formats FTy.f32)
    (hacc : (0x00000000#32 : BitVec 32) = FKind.add.neutral FTy.f32 hφ) (q : Fin 128) :
    multiReduction (F := Ideal) .add [0] S128 src 0x00000000#32 reduces_S5000x128_S128 hφ hacc (ix1 q)
      = ∑ k : Fin 5000, src (ix2 k q) :=
  (Ideal.multiReduction_add_single src 0x00000000#32 reduces_S5000x128_S128 hφ hacc (ix1 q)).trans
    (Finset.sum_congr rfl fun k _ => congrArg src (lift_col reduces_S5000x128_S128 q k))

/-- The column index of a [1,128] index, as a [128] index. -/
theorem tail_ix2 (p : Fin 1) (q : Fin 128) : (fun a : Fin 1 => (ix2 p q : S1x128.Idx) a.succ) = ix1 q := by
  funext a; match a with | ⟨0, _⟩ => rfl

/-- The sum accumulator's new value at column `q`. -/
theorem pay_sum_apply (x : Vec Ideal S5000x128 .f32) (a : Vec Ideal S1x128 .f32) (p : Fin 1) (q : Fin 128) :
    k1_pay4 (F := Ideal) x a (ix2 p q) = a (ix2 p q) + ∑ k : Fin 5000, x (ix2 k q) := by
  unfold k1_pay4 k1_pay3
  dsimp only
  refine (addf_apply _ _ (ix2 p q)).trans ?_
  refine congrArg₂ (· + ·) (congrFun (shapeCast_self a _) (ix2 p q)) ?_
  refine (shapeCast_addUnit_apply ![128] _ shapeCasts_S128_S1x128 (ix2 p q)).trans ?_
  refine (congrArg _ (tail_ix2 p q)).trans ?_
  refine (colsum_apply _ _ _ q).trans ?_
  exact Finset.sum_congr rfl fun k _ => congrFun (shapeCast_self x _) (ix2 k q)

/-- The sum-of-squares accumulator's new value at column `q`. -/
theorem pay_sumsq_apply (x : Vec Ideal S5000x128 .f32) (a : Vec Ideal S1x128 .f32) (p : Fin 1) (q : Fin 128) :
    k1_pay5 (F := Ideal) x a (ix2 p q) = a (ix2 p q) + ∑ k : Fin 5000, x (ix2 k q) * x (ix2 k q) := by
  unfold k1_pay5 k1_pay3
  dsimp only
  refine (addf_apply _ _ (ix2 p q)).trans ?_
  refine congrArg₂ (· + ·) (congrFun (shapeCast_self a _) (ix2 p q)) ?_
  refine (shapeCast_addUnit_apply ![128] _ shapeCasts_S128_S1x128 (ix2 p q)).trans ?_
  refine (congrArg _ (tail_ix2 p q)).trans ?_
  refine (colsum_apply _ _ _ q).trans ?_
  refine Finset.sum_congr rfl fun k _ => ?_
  refine (mulf_apply _ _ (ix2 k q)).trans ?_
  exact congrArg₂ (· * ·) (congrFun (shapeCast_self x _) (ix2 k q)) (congrFun (shapeCast_self x _) (ix2 k q))

/-- The zero block the first point stores into the sum accumulator reads 0. -/
theorem zeros_sum_apply (j : S1x128.Idx) : k1_pay1 (F := Ideal) j = 0 := by
  unfold k1_pay1
  exact Ideal.ofBits_zero_f32

/-- The zero block the first point stores into the sum-of-squares accumulator reads 0. -/
theorem zeros_sumsq_apply (j : S1x128.Idx) : k1_pay2 (F := Ideal) j = 0 := by
  unfold k1_pay2
  exact Ideal.ofBits_zero_f32

end Cert.KernelIdeal.RegionValue

end
-- ==== Proof.LibIndexSums.lean ====
/-
  Sums over the index set of a rank-4 array, re-indexed through the four coordinates: the whole sum, the sum over
  the indices with a given second coordinate (a reduction over axes 0, 2, 3 read at a channel), and the sum over the
  indices with given first and second coordinates (a reduction over axes 2, 3 read at a row and a channel). Also a
  sum over `m * n` consecutive positions cut into `m` groups of `n`. All in any commutative additive monoid, so
  in particular on the extended reals, where no finiteness is needed to regroup a sum.
-/
import Idealize.ShloMosaic.Lib.ValueIdx
import Mathlib.Algebra.BigOperators.Fin
import Mathlib.Algebra.BigOperators.Group.Finset.Basic

namespace Idealize.ShloMosaic.IndexSums

open Idealize.ShloMosaic Idealize.ShloMosaic.ValueIdx

variable {M : Type*} [AddCommMonoid M] {n0 n1 n2 n3 : Nat}

/-- A rank-4 index set is the product of its four coordinate ranges. -/
def idxEquiv4 : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the indices whose SECOND coordinate is `b` (stated for any decidable predicate that says so):
    the threefold sum over the other coordinates. -/
theorem sum_second_eq (f : (⟨4, ![n0, n1, n2, n3]⟩ : Shape).Idx → M) (b : Fin n1)
    (p : (⟨4, ![n0, n1, n2, n3]⟩ : Shape).Idx → Prop) [DecidablePred p] (hp : ∀ i, p i ↔ (i 1).val = b.val) :
    ∑ i ∈ Finset.univ.filter p, f i = ∑ a : Fin n0, ∑ c : Fin n2, ∑ d : Fin n3, f (ix4 a b c d) := by
  rw [Finset.sum_filter, sum_idx4]
  refine Finset.sum_congr rfl fun a _ => ?_
  rw [Finset.sum_eq_single b]
  · refine Finset.sum_congr rfl fun c _ => Finset.sum_congr rfl fun d _ => ?_
    rw [if_pos ((hp _).mpr rfl)]
  · intro b' _ hb
    refine Finset.sum_eq_zero fun c _ => Finset.sum_eq_zero fun d _ => ?_
    rw [if_neg fun h => hb (Fin.ext ((hp _).mp h))]
  · intro h; exact absurd (Finset.mem_univ b) h

/-- The sum over the indices whose FIRST TWO coordinates are `a`, `b`: the double sum over the last two. -/
theorem sum_first_second_eq (f : (⟨4, ![n0, n1, n2, n3]⟩ : Shape).Idx → M) (a : Fin n0) (b : Fin n1)
    (p : (⟨4, ![n0, n1, n2, n3]⟩ : Shape).Idx → Prop) [DecidablePred p]
    (hp : ∀ i, p i ↔ ((i 0).val = a.val ∧ (i 1).val = b.val)) :
    ∑ i ∈ Finset.univ.filter p, f i = ∑ c : Fin n2, ∑ d : Fin n3, f (ix4 a b c d) := by
  rw [Finset.sum_filter, sum_idx4, Finset.sum_eq_single a]
  · rw [Finset.sum_eq_single b]
    · refine Finset.sum_congr rfl fun c _ => Finset.sum_congr rfl fun d _ => ?_
      rw [if_pos ((hp _).mpr ⟨rfl, rfl⟩)]
    · intro b' _ hb
      refine Finset.sum_eq_zero fun c _ => Finset.sum_eq_zero fun d _ => ?_
      rw [if_neg fun h => hb (Fin.ext ((hp _).mp h).2)]
    · intro h; exact absurd (Finset.mem_univ b) h
  · intro a' _ ha
    refine Finset.sum_eq_zero fun b' _ => Finset.sum_eq_zero fun c _ => Finset.sum_eq_zero fun d _ => ?_
    rw [if_neg fun h => ha (Fin.ext ((hp _).mp h).1)]
  · intro h; exact absurd (Finset.mem_univ a) h

/-- Rank 2: the sum over the indices whose SECOND coordinate is `b` is the sum over the first coordinate. -/
theorem sum2_second_eq (f : (⟨2, ![n0, n1]⟩ : Shape).Idx → M) (b : Fin n1)
    (p : (⟨2, ![n0, n1]⟩ : Shape).Idx → Prop) [DecidablePred p] (hp : ∀ i, p i ↔ (i 1).val = b.val) :
    ∑ i ∈ Finset.univ.filter p, f i = ∑ a : Fin n0, f (ix2 a b) := by
  rw [Finset.sum_filter, sum_idx2]
  refine Finset.sum_congr rfl fun a _ => ?_
  rw [Finset.sum_eq_single b]
  · rw [if_pos ((hp _).mpr rfl)]
  · intro b' _ hb
    rw [if_neg fun h => hb (Fin.ext ((hp _).mp h))]
  · intro h; exact absurd (Finset.mem_univ b) h

/-- A sum over `m * n` positions is the sum over `m` groups of the sums over the `n` positions of each group,
    group `t` holding the positions `n * t + j`. -/
theorem sum_groups (m n : Nat) (g : Fin (m * n) → M) :
    ∑ k : Fin (m * n), g k
      = ∑ t : Fin m, ∑ j : Fin n, g ⟨n * t.val + j.val, by
          calc n * t.val + j.val < n * t.val + n := Nat.add_lt_add_left j.isLt _
            _ = n * (t.val + 1) := by ring
            _ ≤ n * m := Nat.mul_le_mul_left _ t.isLt
            _ = m * n := Nat.mul_comm _ _⟩ := by
  rw [← Equiv.sum_comp finProdFinEquiv g, Fintype.sum_prod_type]
  refine Finset.sum_congr rfl fun t _ => Finset.sum_congr rfl fun j _ => congrArg g (Fin.ext ?_)
  simp [finProdFinEquiv, Nat.add_comm]

end Idealize.ShloMosaic.IndexSums
-- ==== Proof.StatsSums.lean ====
/-
  A sum over 50000 rows taken ten blocks of 5000 rows at a time.

  `blockSum g s` is the sum of `g` over the rows 5000 s, …, 5000 s + 4999 of block `s` (and 0 past the tenth block);
  adding the blocks one after another, first to tenth, gives the sum of `g` over all 50000 rows. This holds in any
  commutative additive monoid: in particular for extended reals, where regrouping a sum needs no finiteness.
-/
import proofs.«132868_j17540646437112_1_alg».proof.Proof.LibIndexSums
import Mathlib.Algebra.BigOperators.Fin
import Mathlib.Algebra.BigOperators.Intervals

namespace Cert.KernelIdeal.RegionValue

variable {M : Type*} [AddCommMonoid M]

/-- The sum of `g` over the 5000 rows of block `s`. -/
def blockSum (g : Fin 50000 → M) (s : ℕ) : M :=
  if h : s < 10 then ∑ k : Fin 5000, g ⟨5000 * s + k.val, by have := k.isLt; omega⟩ else 0

/-- The ten blocks, added first to last, give the sum over all rows. -/
theorem sum_blockSum (g : Fin 50000 → M) : ∑ s ∈ Finset.range 10, blockSum g s = ∑ r : Fin 50000, g r := by
  rw [Finset.sum_range]
  refine Eq.trans ?_ (Idealize.ShloMosaic.IndexSums.sum_groups 10 5000 g).symm
  refine Finset.sum_congr rfl fun s _ => ?_
  unfold blockSum
  rw [dif_pos s.isLt]

end Cert.KernelIdeal.RegionValue
-- ==== Proof.RegionStats.lean ====
/-
  What the batch-statistics reduction leaves in its two output arrays, over the extended reals, for any contents
  `V` of the buffers when the region is entered.

  The region walks the [50000,128] array in ten row blocks of 5000. Its two [1,128] outputs are accumulators that
  stay in place from one grid point to the next and are written back to their arrays once, after the last point.
  After point `n` the first accumulator holds, at column `q`, the sum over the blocks 0..n of the column sums of the
  block — that is the sum of column `q` over the rows below 5000 (n + 1) — and the second the same sum of squares
  (induction on the point: the first point starts from a stored zero, every later point adds its block to what
  the point before left). After the last point the ten blocks are all the rows, so the arrays end holding the
  column sums and the column sums of squares of the whole array. Only commutativity and associativity of the
  extended reals' addition are used.
-/
import proofs.«132868_j17540646437112_1_alg».proof.Proof.Gen.KernelIdeal.Frame
import proofs.«132868_j17540646437112_1_alg».proof.Proof.StatsPieces
import proofs.«132868_j17540646437112_1_alg».proof.Proof.StatsPayload
import proofs.«132868_j17540646437112_1_alg».proof.Proof.StatsSums
import Idealize.ShloMosaic.Lib.ValueIdx
import Idealize.ShloMosaic.Lib.Pipeline.Value

noncomputable section

open Idealize.ShloMosaic Idealize.ShloMosaic.TcCoe Idealize.SL.Sem
open Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-! ## The arrays, under names whose entries are extended reals -/

/-- The [50000,128] array the region reads, as it finds it. -/
abbrev inArr (c : Dev nD) : FVec Ideal S50000x128 .f32 := V c main_v54

/-- The [5000,128] row block point `t` reads. -/
abbrev rowBlock (c : Dev nD) (t : Fin cfg1.N) : FVec Ideal S5000x128 .f32 := iblk1 V c 0 t

/-- The two [1,128] accumulators after point `n`. -/
abbrev accSum (c : Dev nD) (n : ℕ) (h : n < cfg1.N) : FVec Ideal S1x128 .f32 := (outsAt1 V c n h).1
abbrev accSumSq (c : Dev nD) (n : ℕ) (h : n < cfg1.N) : FVec Ideal S1x128 .f32 := (outsAt1 V c n h).2

/-! ## The row block a point reads -/

/-- The input window's block index at point `t` is (t, 0): decided over the ten points. -/
theorem block_index : ∀ t : Fin cfg1.N, win1_0.index t 0 = t.val ∧ win1_0.index t 1 = 0 :=
  (by decide +kernel : ∀ t : Fin grid1.N, win1_0.index t 0 = t.val ∧ win1_0.index t 1 = 0)

/-- Row `k`, column `q` of the block point `t` reads is row 5000 t + k, column `q` of the array. -/
theorem block_read (c : Dev nD) (t : Fin cfg1.N) (k : Fin 5000) (q : Fin 128) :
    rowBlock V c t (ix2 k q)
      = inArr V c (ix2 (⟨5000 * t.val + k.val, by have := k.isLt; have := lt_of_lt_of_eq t.isLt N_1; omega⟩ : Fin 50000) q) := by
  have hi := block_index t
  show iblk1 V c 0 t (ix2 k q) = V c main_v54 _
  unfold iblk1
  rw [View.read_apply]
  show V c main_v54 _ = V c main_v54 _
  congr 1
  funext a
  apply Fin.ext
  match a with
  | ⟨0, _⟩ => show win1_0.index t 0 * 5000 + 1 * k.val = 5000 * t.val + k.val; rw [hi.1]; omega
  | ⟨1, _⟩ => show win1_0.index t 1 * 128 + 1 * q.val = q.val; rw [hi.2]; omega

/-- Column `q` of the array, as a function of the row. -/
abbrev col (c : Dev nD) (q : Fin 128) : Fin 50000 → Ideal .f32 :=
  fun r => inArr V c (ix2 r q)

/-- Column `q` of the array squared entry by entry, as a function of the row. -/
abbrev colSq (c : Dev nD) (q : Fin 128) : Fin 50000 → Ideal .f32 :=
  fun r => inArr V c (ix2 r q) * inArr V c (ix2 r q)

/-- The column sum of the block point `t` reads is block `t`'s share of the column's sum. -/
theorem block_colsum (c : Dev nD) (t : Fin cfg1.N) (q : Fin 128) :
    ∑ k : Fin 5000, rowBlock V c t (ix2 k q) = blockSum (col V c q) t.val := by
  have hN : t.val < 10 := lt_of_lt_of_eq t.isLt N_1
  unfold blockSum
  rw [dif_pos hN]
  exact Finset.sum_congr rfl fun k _ => block_read V c t k q

/-- The same for the squares. -/
theorem block_colsumsq (c : Dev nD) (t : Fin cfg1.N) (q : Fin 128) :
    ∑ k : Fin 5000, rowBlock V c t (ix2 k q) * rowBlock V c t (ix2 k q) = blockSum (colSq V c q) t.val := by
  have hN : t.val < 10 := lt_of_lt_of_eq t.isLt N_1
  unfold blockSum
  rw [dif_pos hN]
  exact Finset.sum_congr rfl fun k _ => congrArg₂ (· * ·) (block_read V c t k q) (block_read V c t k q)

/-! ## The accumulators after each point -/

/-- After the first point: a stored zero plus the block's sums. -/
theorem outs_first (c : Dev nD) (t : Fin cfg1.N) (h0 : t.val % 10 = 0) :
    outsAt1 V c t.val t.isLt
      = (k1_pay4 (iblk1 V c 0 t) (k1_pay1 (F := Ideal)), k1_pay5 (iblk1 V c 0 t) (k1_pay2 (F := Ideal))) := by
  rw [outsAt1_A V c t h0]
  exact congrArg₂ Prod.mk
    (first_sum c (grid1.coords t) (ms1_0 t) (hs1_0 t) (ms1_1 t) (hs1_1 t) (ms1_2 t) (hs1_2 t) ((hcond1_0 t).mpr h0) (iblk1 V c 0 t))
    (first_sumsq c (grid1.coords t) (ms1_0 t) (hs1_0 t) (ms1_1 t) (hs1_1 t) (ms1_2 t) (hs1_2 t) ((hcond1_0 t).mpr h0) (iblk1 V c 0 t))

/-- After a later point: what the point before left plus the block's sums. -/
theorem outs_later (c : Dev nD) (t : Fin cfg1.N) (h0 : ¬t.val % 10 = 0) :
    outsAt1 V c t.val t.isLt
      = (k1_pay4 (iblk1 V c 0 t) (outsAt1 V c (t.val - 1) (Nat.lt_of_le_of_lt (Nat.sub_le _ _) t.isLt)).1,
         k1_pay5 (iblk1 V c 0 t) (outsAt1 V c (t.val - 1) (Nat.lt_of_le_of_lt (Nat.sub_le _ _) t.isLt)).2) := by
  rw [outsAt1_B V c t h0]
  exact congrArg₂ Prod.mk
    (later_sum c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2)
    (later_sumsq c (grid1.coords t) (ms1_0 t) (hs1_0 t) (ms1_1 t) (hs1_1 t) (ms1_2 t) (hs1_2 t) (fun h => h0 ((hcond1_0 t).mp h)) (iblk1 V c 0 t)
      (outsAt1 V c (t.val - 1) (Nat.lt_of_le_of_lt (Nat.sub_le _ _) t.isLt)).1 (outsAt1 V c (t.val - 1) (Nat.lt_of_le_of_lt (Nat.sub_le _ _) t.isLt)).2)

/-- THE INVARIANT. After point `n` the accumulators hold, at column `q`, the sum (of squares) of the column over the
    blocks 0, …, n. -/
theorem acc_eq (c : Dev nD) : ∀ (n : ℕ) (h : n < cfg1.N) (p : Fin 1) (q : Fin 128),
    accSum V c n h (ix2 p q) = ∑ s ∈ Finset.range (n + 1), blockSum (col V c q) s
    ∧ accSumSq V c n h (ix2 p q) = ∑ s ∈ Finset.range (n + 1), blockSum (colSq V c q) s
  | 0, h, p, q => by
    have e : outsAt1 V c 0 h = _ := outs_first V c ⟨0, h⟩ rfl
    show (outsAt1 V c 0 h).1 (ix2 p q) = _ ∧ (outsAt1 V c 0 h).2 (ix2 p q) = _
    rw [e]
    dsimp only
    constructor
    · refine (pay_sum_apply (iblk1 V c 0 ⟨0, h⟩) (k1_pay1 (F := Ideal)) p q).trans ?_
      rw [zeros_sum_apply, zero_add, Finset.sum_range_one]
      exact block_colsum V c ⟨0, h⟩ q
    · refine (pay_sumsq_apply (iblk1 V c 0 ⟨0, h⟩) (k1_pay2 (F := Ideal)) p q).trans ?_
      rw [zeros_sumsq_apply, zero_add, Finset.sum_range_one]
      exact block_colsumsq V c ⟨0, h⟩ q
  | n + 1, h, p, q => by
    have hN : cfg1.N = 10 := N_1
    have hB : ¬(⟨n + 1, h⟩ : Fin cfg1.N).val % 10 = 0 := by dsimp only; omega
    have e : outsAt1 V c (n + 1) h = _ := outs_later V c ⟨n + 1, h⟩ hB
    have ih := acc_eq c n (Nat.lt_of_succ_lt h) p q
    show (outsAt1 V c (n + 1) h).1 (ix2 p q) = _ ∧ (outsAt1 V c (n + 1) h).2 (ix2 p q) = _
    rw [e]
    dsimp only
    constructor
    · refine (pay_sum_apply (iblk1 V c 0 ⟨n + 1, h⟩) _ p q).trans ?_
      rw [Finset.sum_range_succ]
      exact congrArg₂ (· + ·) ih.1 (block_colsum V c ⟨n + 1, h⟩ q)
    · refine (pay_sumsq_apply (iblk1 V c 0 ⟨n + 1, h⟩) _ p q).trans ?_
      rw [Finset.sum_range_succ]
      exact congrArg₂ (· + ·) ih.2 (block_colsumsq V c ⟨n + 1, h⟩ q)

/-! ## The arrays after the run -/

/-- The column sums of the whole array: at (p, q) the sum of column `q` over all 50000 rows. -/
abbrev colSumsFn (c : Dev nD) : FVec Ideal S1x128 .f32 :=
  fun j => ∑ r : Fin 50000, inArr V c (ix2 r (j 1))

/-- The column sums of squares of the whole array. -/
abbrev colSumsSqFn (c : Dev nD) : FVec Ideal S1x128 .f32 :=
  fun j => ∑ r : Fin 50000, inArr V c (ix2 r (j 1)) * inArr V c (ix2 r (j 1))

/-- The same two, as contents of the two output arrays. -/
abbrev colSums (c : Dev nD) : Buf (Elt Ideal) ((c : Thread nD τ).loc main_v55_0) := colSumsFn V c
abbrev colSumsSq (c : Dev nD) : Buf (Elt Ideal) ((c : Thread nD τ).loc main_v55_1) := colSumsSqFn V c

/-- After the last point the first accumulator holds the column sums … -/
theorem last_sum (c : Dev nD) : (outsAt1 V c t1_9.val t1_9.isLt).1 = colSums V c := by
  funext j
  obtain ⟨p, q, rfl⟩ : ∃ (p : Fin 1) (q : Fin 128), j = ix2 p q := ⟨j 0, j 1, eq_ix2 j⟩
  show accSum V c 9 t1_9.isLt (ix2 p q) = ∑ r : Fin 50000, col V c q r
  exact ((acc_eq V c 9 t1_9.isLt p q).1).trans (sum_blockSum (col V c q))

/-- … and the second the column sums of squares. -/
theorem last_sumsq (c : Dev nD) : (outsAt1 V c t1_9.val t1_9.isLt).2 = colSumsSq V c := by
  funext j
  obtain ⟨p, q, rfl⟩ : ∃ (p : Fin 1) (q : Fin 128), j = ix2 p q := ⟨j 0, j 1, eq_ix2 j⟩
  show accSumSq V c 9 t1_9.isLt (ix2 p q) = ∑ r : Fin 50000, colSq V c q r
  exact ((acc_eq V c 9 t1_9.isLt p q).2).trans (sum_blockSum (colSq V c q))

/-- The one write-back of the first output, after the last point, writes the column sums: block (0, 0) of the
    [1,128] array is the whole array. -/
theorem flushed_sum (c : Dev nD) (t : Fin cfg1.N) (hf : (cfg1.win 1).flush t = true) :
    (dat1 V c).flushed 1 t = ((cfg1.win 1).blk t).view.read (Elt Ideal) (colSums V c) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, last_sum]
  have hz' : (fun a => win1_1.index t1_9 a * main_v55_0.ty.shape.size a) = fun _ => 0 := funext fun a => by fin_cases a <;> decide
  exact (Memref.read_access_unit_zero (Elt Ideal) main_v55_0 hz' (fun a => by rw [congrFun hz' a]; simp) (colSums V c)).symm

theorem flushed_sumsq (c : Dev nD) (t : Fin cfg1.N) (hf : (cfg1.win 2).flush t = true) :
    (dat1 V c).flushed 2 t = ((cfg1.win 2).blk t).view.read (Elt Ideal) (colSumsSq V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, last_sumsq]
  have hz' : (fun a => win1_2.index t1_9 a * main_v55_1.ty.shape.size a) = fun _ => 0 := funext fun a => by fin_cases a <;> decide
  exact (Memref.read_access_unit_zero (Elt Ideal) main_v55_1 hz' (fun a => by rw [congrFun hz' a]; simp) (colSumsSq V c)).symm

/-- The first output array ends holding the column sums of the array the region read. -/
theorem region1_sum (c : Dev nD) :
    (Gen.dat1 (F := Ideal) V c).arrAt 1 cfg1.N = colSums V c :=
  (dat1 V c).arrAt_eq_of_cover 1 (colSums V c) (flushed_sum V c) fun i =>
    ⟨t1_9, (flush1_1 t1_9).mpr rfl, by
      show i ∈ ((View.whole main_v55_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- The second output array ends holding the column sums of squares of the array the region read. -/
theorem region1_sumsq (c : Dev nD) :
    (Gen.dat1 (F := Ideal) V c).arrAt 2 cfg1.N = colSumsSq V c :=
  (dat1 V c).arrAt_eq_of_cover 2 (colSumsSq V c) (flushed_sumsq V c) fun i =>
    ⟨t1_9, (flush1_2 t1_9).mpr rfl, by
      show i ∈ ((View.whole main_v55_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- The two results read at an index: entry (p, q) is the sum of column `q` (of its squares) over all 50000 rows. -/
theorem colSums_apply (c : Dev nD) (j : S1x128.Idx) :
    colSumsFn V c j = ∑ r : Fin 50000, inArr V c (ix2 r (j 1)) := rfl
theorem colSumsSq_apply (c : Dev nD) (j : S1x128.Idx) :
    colSumsSqFn V c j = ∑ r : Fin 50000, inArr V c (ix2 r (j 1)) * inArr V c (ix2 r (j 1)) := rfl

/-- The same two theorems with the right-hand sides written out. -/
theorem region1_sum_fun (c : Dev nD) :
    (Gen.dat1 (F := Ideal) V c).arrAt 1 cfg1.N
      = (fun j : S1x128.Idx => ∑ r : Fin 50000, inArr V c (ix2 r (j 1))) := region1_sum V c
theorem region1_sumsq_fun (c : Dev nD) :
    (Gen.dat1 (F := Ideal) V c).arrAt 2 cfg1.N
      = (fun j : S1x128.Idx => ∑ r : Fin 50000, inArr V c (ix2 r (j 1)) * inArr V c (ix2 r (j 1))) := region1_sumsq V c

end Cert.KernelIdeal.RegionValue

end
-- ==== Proof.MatmulSpec.lean ====
/-
  The product of a [50000,128] matrix by a [128,128] matrix over the extended reals, entry by entry:
  entry (r, c) is the sum over k < 128 of x(r, k) * w(k, c).
-/
import Idealize.ShloMosaic.Lib.ValueIdx

noncomputable section

open Idealize.ShloMosaic Idealize.ShloMosaic.ValueIdx

namespace Cert.KernelIdeal.RegionValue

/-- The matrix product x · w, index by index. -/
def matmulSpec (x : FVec Ideal ⟨2, ![50000, 128]⟩ .f32) (w : FVec Ideal ⟨2, ![128, 128]⟩ .f32) :
    FVec Ideal ⟨2, ![50000, 128]⟩ .f32 :=
  fun i => ∑ k : Fin 128, x (ix2 (i 0) k) * w (ix2 k (i 1))

theorem matmulSpec_apply (x : FVec Ideal ⟨2, ![50000, 128]⟩ .f32) (w : FVec Ideal ⟨2, ![128, 128]⟩ .f32)
    (r : Fin 50000) (c : Fin 128) : matmulSpec x w (ix2 r c) = ∑ k : Fin 128, x (ix2 r k) * w (ix2 k c) := rfl

end Cert.KernelIdeal.RegionValue

end
-- ==== Proof.MatmulPayload.lean ====
/-
  The arithmetic of one grid point of the matrix-product region, read at one entry, over the extended reals.

  The body narrows both loaded blocks to bf16 — the identity on extended reals — and multiplies the [5000,128] row
  block by the [128,128] matrix into a zero accumulator, contracting the block's columns with the matrix's rows.
  So entry (a, b) of what it stores is the sum over k < 128 of x(a, k) * w(k, b).
-/
import proofs.«132868_j17540646437112_1_alg».proof.Proof.Gen.KernelIdeal.Skeleton
import Idealize.ShloMosaic.Lib.ValueIdx
import Idealize.ShloMosaic.Lib.StackMember
import Idealize.ShloMosaic.PureOps.Ideal.Laws

noncomputable section

open Idealize.ShloMosaic Idealize.ShloMosaic.TcCoe Idealize.SL.Sem
open Idealize.ShloMosaic.ValueIdx

namespace Cert.KernelIdeal.RegionValue

open Cert.KernelIdeal Cert.KernelIdeal.Gen

/-- A plain m×k by k×n product into a zero accumulator, read at (a, b): the sum over the contracted coordinate —
    the same sum the host's plain product is. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The body's dimension numbers are the plain product's: contract the left operand's columns with the right
    operand's rows, no batch axis. -/
theorem dims_plain : dot_S5000x128_S128x128_S5000x128_1_0_0_1_n_n = DotDims.plain 5000 128 128 := rfl

/-- Entry (a, b) of what the body stores. -/
theorem pay_matmul_apply (x : Vec Ideal S5000x128 .f32) (w : Vec Ideal S128x128 .f32) (a : Fin 5000) (b : Fin 128) :
    k0_pay1 (F := Ideal) x w (ix2 a b) = ∑ c : Fin 128, x (ix2 a c) * w (ix2 c b) := by
  unfold k0_pay1
  rw [dims_plain]
  exact matmul_plain_apply none x w a b

end Cert.KernelIdeal.RegionValue

end
-- ==== Proof.RegionMatmul.lean ====
/-
  What the matrix-product region leaves in its output array, over the extended reals, for any contents `V` of the
  buffers when the region is entered.

  The region walks the [50000,128] left operand in ten row blocks of 5000; at every point it reads the whole
  [128,128] right operand and stores the block's product with it into the same row block of the [50000,128]
  output, which is written back at every point. Row 5000 t + a of the output is therefore row `a` of point `t`'s
  product, the ten row blocks cover the output (row `r` lies in block r / 5000), and the array ends holding the
  product of the two operands, entry by entry.
-/
import proofs.«132868_j17540646437112_1_alg».proof.Proof.Gen.KernelIdeal.Frame
import proofs.«132868_j17540646437112_1_alg».proof.Proof.MatmulSpec
import proofs.«132868_j17540646437112_1_alg».proof.Proof.MatmulPayload
import Idealize.ShloMosaic.Lib.ValueIdx
import Idealize.ShloMosaic.Lib.Pipeline.Value

noncomputable section

open Idealize.ShloMosaic Idealize.ShloMosaic.TcCoe Idealize.SL.Sem
open Idealize.ShloMosaic.ValueIdx
open Idealize.ShloMosaic.Pipeline (Dat)

namespace Cert.KernelIdeal.RegionValue

open Cert.KernelIdeal Cert.KernelIdeal.Gen

variable (V : (c : Dev nD) → (b : Ref sig .tc) → Buf (Elt Ideal) ((c : Thread nD τ).loc b))

/-! ## The arrays, under names whose entries are extended reals -/

/-- The [50000,128] left operand, as the region finds it. -/
abbrev xArr (c : Dev nD) : FVec Ideal S50000x128 .f32 := V c main_arg0

/-- The [128,128] right operand, as the region finds it. -/
abbrev wArr (c : Dev nD) : FVec Ideal S128x128 .f32 := V c main_arg3

/-- The row block of the left operand point `t` reads, and the right operand's one block. -/
abbrev xBlock (c : Dev nD) (t : Fin cfg0.N) : FVec Ideal S5000x128 .f32 := iblk0 V c 0 t
abbrev wBlock (c : Dev nD) (t : Fin cfg0.N) : FVec Ideal S128x128 .f32 := iblk0 V c 1 t

/-- The product of the two operands, as contents of the output array. -/
abbrev matmulArr (c : Dev nD) : Buf (Elt Ideal) ((c : Thread nD τ).loc main_v38) := matmulSpec (xArr V c) (wArr V c)

/-! ## The blocks a point reads and writes -/

theorem zero_offsets : (![0, 0] : Fin 2 → Nat) = fun _ => 0 := funext fun a => by fin_cases a <;> rfl

/-- The windows' block indices at point `t`: (t, 0) for the left operand and the output, (0, 0) for the right
    operand — decided over the ten points. -/
theorem block_indices : ∀ t : Fin cfg0.N, win0_0.index t 0 = t.val ∧ win0_0.index t 1 = 0
    ∧ win0_1.index t 0 = 0 ∧ win0_1.index t 1 = 0 ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0 ∧ win0_2.index t 0 = t.val ∧ win0_2.index t 1 = 0)

/-- Row 5000 t + a is a row of the [50000,128] arrays. -/
theorem row_lt (t : Fin cfg0.N) (a : Fin 5000) : 5000 * t.val + a.val < 50000 := by
  have := a.isLt; have := lt_of_lt_of_eq t.isLt N_0; omega

/-- Entry (a, k) of the left operand's block at point `t` is entry (5000 t + a, k) of the operand. -/
theorem x_block_read (c : Dev nD) (t : Fin cfg0.N) (a : Fin 5000) (k : Fin 128) :
    xBlock V c t (ix2 a k) = xArr V c (ix2 (⟨5000 * t.val + a.val, row_lt t a⟩ : Fin 50000) k) := by
  obtain ⟨e0, e1, -⟩ := block_indices t
  show iblk0 V c 0 t (ix2 a k) = V c main_arg0 _
  unfold iblk0
  rw [View.read_apply]
  show V c main_arg0 _ = V c main_arg0 _
  congr 1
  funext ax
  apply Fin.ext
  match ax with
  | ⟨0, _⟩ => show win0_0.index t 0 * 5000 + 1 * a.val = 5000 * t.val + a.val; rw [e0]; omega
  | ⟨1, _⟩ => show win0_0.index t 1 * 128 + 1 * k.val = k.val; rw [e1]; omega

/-- The right operand's block at any point is the whole operand. -/
theorem w_block_read (c : Dev nD) (t : Fin cfg0.N) (k : Fin 128) (b : Fin 128) :
    wBlock V c t (ix2 k b) = wArr V c (ix2 k b) := by
  obtain ⟨-, -, e0, e1, -⟩ := block_indices t
  show iblk0 V c 1 t (ix2 k b) = V c main_arg3 _
  unfold iblk0
  rw [View.read_apply]
  show V c main_arg3 _ = V c main_arg3 _
  congr 1
  funext ax
  apply Fin.ext
  match ax with
  | ⟨0, _⟩ => show win0_1.index t 0 * 128 + 1 * k.val = k.val; rw [e0]; omega
  | ⟨1, _⟩ => show win0_1.index t 1 * 128 + 1 * b.val = b.val; rw [e1]; omega

/-- Entry (a, b) of the output's block at point `t` sits at (5000 t + a, b) of the output. -/
theorem out_block_emb (t : Fin cfg0.N) (a : Fin 5000) (b : Fin 128) :
    (((cfg0.win 2).blk t).view.emb (ix2 a b) : S50000x128.Idx)
      = ix2 (⟨5000 * t.val + a.val, row_lt t a⟩ : Fin 50000) b := by
  obtain ⟨-, -, -, -, e0, e1⟩ := block_indices t
  funext ax
  apply Fin.ext
  match ax with
  | ⟨0, _⟩ => show win0_2.index t 0 * 5000 + 1 * a.val = 5000 * t.val + a.val; rw [e0]; omega
  | ⟨1, _⟩ => show win0_2.index t 1 * 128 + 1 * b.val = b.val; rw [e1]; omega

/-! ## What a point writes back -/

/-- WHAT POINT `t` WRITES BACK is block `t` of the product of the two operands. -/
theorem flushed_matmul (c : Dev nD) (t : Fin cfg0.N) :
    (dat0 V c).flushed 2 t = ((cfg0.win 2).blk t).view.read (Elt Ideal) (matmulArr V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  funext j
  obtain ⟨a, b, rfl⟩ : ∃ (a : Fin 5000) (b : Fin 128), j = ix2 a b := ⟨j 0, j 1, eq_ix2 j⟩
  refine (pay_matmul_apply (iblk0 V c 0 t) (iblk0 V c 1 t) a b).trans ?_
  rw [View.read_apply]
  show _ = matmulSpec (xArr V c) (wArr V c) (((cfg0.win 2).blk t).view.emb (ix2 a b))
  rw [out_block_emb t a b, matmulSpec_apply]
  exact Finset.sum_congr rfl fun k _ => congrArg₂ (· * ·) (x_block_read V c t a k) (w_block_read V c t k b)

/-! ## The cover, and the array after the run -/

/-- An index of the output is in point `t`'s block iff each coordinate is in the block's range on its axis. -/
theorem mem_out_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v38).slice (win0_2.rect t)).set ↔ _
  rw [View.set_slice_whole, Rect.mem_set_unit]
  exact Iff.rfl

/-- Row `r` of the output lies in the block of point r / 5000. -/
theorem out_cover (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  let t : Fin cfg0.N := ⟨(i 0).val / 5000, by rw [hN]; omega⟩
  obtain ⟨-, -, -, -, e0, e1⟩ := block_indices t
  have ht : t.val = (i 0).val / 5000 := rfl
  refine ⟨t, flush0_2 t, ?_⟩
  rw [mem_out_block]
  intro a
  match a with
  | ⟨0, _⟩ => show win0_2.index t 0 * 5000 ≤ (i 0).val ∧ (i 0).val < win0_2.index t 0 * 5000 + 5000; rw [e0, ht]; omega
  | ⟨1, _⟩ => show win0_2.index t 1 * 128 ≤ (i 1).val ∧ (i 1).val < win0_2.index t 1 * 128 + 128; rw [e1]; omega

/-- The output array ends holding the product of the two operands as the region found them. -/
theorem region0_arr (c : Dev nD) : (Gen.dat0 (F := Ideal) V c).arrAt 2 cfg0.N = matmulArr V c :=
  (dat0 V c).arrAt_eq_of_cover 2 (matmulArr V c) (fun t _ => flushed_matmul V c t) (out_cover)

/-- The same with the right-hand side written out. -/
theorem region0_arr_spec (c : Dev nD) :
    (Gen.dat0 (F := Ideal) V c).arrAt 2 cfg0.N = matmulSpec (xArr V c) (wArr V c) := region0_arr V c

end Cert.KernelIdeal.RegionValue

end
-- ==== Proof.RegionBn.lean ====
/- What the normalise-and-rectify launch (grid of 10 points, blocks of 5000 rows by 128 columns)
   leaves in its output array, as ONE function of the five arrays it finds, at the extended reals.
   The body computes, entry by entry, `max (g_j * ((v_{r,j} - mean_j) * (var_j + ε)^{-1/2}) + be_j) 0`: the full-height
   input `v` is read in the block of rows the output block occupies, the four row vectors `mean`, `var`, `g`, `be` are read
   whole at every point. Point `t` writes rows `5000 t … 5000 t + 4999`; the ten blocks tile the 50000 rows, so the array
   ends holding that function everywhere. The parameter `V` is the buffers' contents when the launch is entered. -/
import proofs.«132868_j17540646437112_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The normalisation with learned scale and shift followed by the rectifier, entry by entry: at row `r` and column `j`,
    `max (g_j * ((v_{r,j} - mean_j) * (var_j + ε)^{-1/2}) + be_j) 0`. -/
def bnSpec (v : FVec Ideal S50000x128 .f32) (mean var g be : FVec Ideal S1x128 .f32) : FVec Ideal S50000x128 .f32 :=
  fun i => max (g (ix2 0 (i 1)) * ((v i - mean (ix2 0 (i 1))) * Ideal.rsqrt (var (ix2 0 (i 1)) + Ideal.ofBits .f32 0x3727C5AC#32)) + be (ix2 0 (i 1))) 0

/-- A row vector broadcast down the rows reads its column entry. -/
theorem rowBroadcast_apply (x : Vec Ideal S1x128 .f32) (p : Fin 5000) (q : Fin 128) :
    broadcastTo S5000x128 x broadcasts_S1x128_S5000x128 (ix2 p q) = x (ix2 0 q) :=
  broadcastTo_apply x _ (ix2 p q) (ix2 0 q) (fun a => by match a with | ⟨0, _⟩ => rfl | ⟨1, _⟩ => rfl)

/-- The body's arithmetic at row `p`, column `q` of a block. -/
theorem bn_payload_apply (x0 : Vec Ideal S5000x128 .f32) (x1 x2 x3 x4 : Vec Ideal S1x128 .f32) (p : Fin 5000) (q : Fin 128) :
    k2_pay1 x0 x1 x2 x3 x4 (ix2 p q)
      = max (x3 (ix2 0 q) * ((x0 (ix2 p q) - x1 (ix2 0 q)) * Ideal.rsqrt (x2 (ix2 0 q) + Ideal.ofBits .f32 0x3727C5AC#32)) + x4 (ix2 0 q)) 0 := by
  unfold k2_pay1
  simp only [shapeCast_self]
  rw [maximumf_apply, addf_apply, mulf_apply, mulf_apply, subf_apply, broadcast_apply,
    rowBroadcast_apply, rowBroadcast_apply, rowBroadcast_apply, rowBroadcast_apply]
  show max (x3 (ix2 0 q) * ((x0 (ix2 p q) - x1 (ix2 0 q)) * Ideal.rsqrt (x2 (ix2 0 q) + Ideal.ofBits .f32 0x3727C5AC#32)) + x4 (ix2 0 q)) (Ideal.ofBits .f32 0x00000000#32) = _
  rw [Ideal.ofBits_zero_f32]

/-- `bnSpec` at an index whose column is `q`. -/
theorem bnSpec_apply (v : FVec Ideal S50000x128 .f32) (mean var g be : FVec Ideal S1x128 .f32) (i : S50000x128.Idx) (q : Fin 128)
    (hq : (i 1).val = q.val) :
    bnSpec v mean var g be i
      = max (g (ix2 0 q) * ((v i - mean (ix2 0 q)) * Ideal.rsqrt (var (ix2 0 q) + Ideal.ofBits .f32 0x3727C5AC#32)) + be (ix2 0 q)) 0 := by
  have e : (i 1 : Fin 128) = q := Fin.ext hq
  unfold bnSpec
  rw [e]

variable (V : (c : Dev nD) → (b : Ref sig .tc) → Buf (Elt Ideal) ((c : Thread nD τ).loc b))

theorem zero_offsets : (![0, 0] : Fin 2 → Nat) = fun _ => 0 := funext fun a => by fin_cases a <;> rfl

/-- The block indices of the six windows of the normalisation launch, at every grid point: the two full-height arrays move
    down one block per point, the four row vectors stay at their only block. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The full-height input's block at point `t` sits where the output's block does. -/
theorem emb2_0_eq (t : Fin cfg2.N) (p : Fin 5000) (q : Fin 128) :
    ((cfg2.win 0).blk t).view.emb (ix2 p q) = ((cfg2.win 5).blk t).view.emb (ix2 p q) := by
  obtain ⟨e00, e01, -, -, -, -, -, -, -, -, e50, e51⟩ := index_facts2 t
  funext a; apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 128 + 1 * q.val = win2_5.index t (1 : Fin 2) * 128 + 1 * q.val; omega

/-- Each row vector's only block is the vector itself. -/
theorem emb2_1_eq (t : Fin cfg2.N) (q : Fin 128) : ((cfg2.win 1).blk t).view.emb (ix2 0 q) = (ix2 0 q : S1x128.Idx) := by
  obtain ⟨-, -, e10, e11, -, -, -, -, -, -, -, -⟩ := index_facts2 t
  funext a; apply Fin.ext
  match a with
  | ⟨0, _⟩ => show win2_1.index t (0 : Fin 2) * 1 + 1 * 0 = 0; omega
  | ⟨1, _⟩ => show win2_1.index t (1 : Fin 2) * 128 + 1 * q.val = q.val; omega

theorem emb2_2_eq (t : Fin cfg2.N) (q : Fin 128) : ((cfg2.win 2).blk t).view.emb (ix2 0 q) = (ix2 0 q : S1x128.Idx) := by
  obtain ⟨-, -, -, -, e20, e21, -, -, -, -, -, -⟩ := index_facts2 t
  funext a; apply Fin.ext
  match a with
  | ⟨0, _⟩ => show win2_2.index t (0 : Fin 2) * 1 + 1 * 0 = 0; omega
  | ⟨1, _⟩ => show win2_2.index t (1 : Fin 2) * 128 + 1 * q.val = q.val; omega

theorem emb2_3_eq (t : Fin cfg2.N) (q : Fin 128) : ((cfg2.win 3).blk t).view.emb (ix2 0 q) = (ix2 0 q : S1x128.Idx) := by
  obtain ⟨-, -, -, -, -, -, e30, e31, -, -, -, -⟩ := index_facts2 t
  funext a; apply Fin.ext
  match a with
  | ⟨0, _⟩ => show win2_3.index t (0 : Fin 2) * 1 + 1 * 0 = 0; omega
  | ⟨1, _⟩ => show win2_3.index t (1 : Fin 2) * 128 + 1 * q.val = q.val; omega

theorem emb2_4_eq (t : Fin cfg2.N) (q : Fin 128) : ((cfg2.win 4).blk t).view.emb (ix2 0 q) = (ix2 0 q : S1x128.Idx) := by
  obtain ⟨-, -, -, -, -, -, -, -, e40, e41, -, -⟩ := index_facts2 t
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- The output's block keeps the column. -/
theorem emb2_5_col (t : Fin cfg2.N) (p : Fin 5000) (q : Fin 128) :
    ((((cfg2.win 5).blk t).view.emb (ix2 p q)) 1).val = q.val := by
  obtain ⟨-, -, -, -, -, -, -, -, -, -, e50, e51⟩ := index_facts2 t
  show win2_5.index t (1 : Fin 2) * 128 + 1 * q.val = q.val; omega

/-- The input blocks the body reads at point `t`, entry by entry, as entries of the arrays the launch finds. -/
theorem iblk2_0_apply (c : Dev nD) (t : Fin cfg2.N) (p : Fin 5000) (q : Fin 128) :
    (iblk2 V c 0 t : Vec Ideal S5000x128 .f32) (ix2 p q) = V c main_v54 (((cfg2.win 5).blk t).view.emb (ix2 p q)) := by
  show V c main_v54 (((cfg2.win 0).blk t).view.emb (ix2 p q)) = _; rw [emb2_0_eq]
theorem iblk2_1_apply (c : Dev nD) (t : Fin cfg2.N) (q : Fin 128) :
    (iblk2 V c 1 t : Vec Ideal S1x128 .f32) (ix2 0 q) = V c main_v64 (ix2 0 q) := by
  show V c main_v64 (((cfg2.win 1).blk t).view.emb (ix2 0 q)) = _; rw [emb2_1_eq]
theorem iblk2_2_apply (c : Dev nD) (t : Fin cfg2.N) (q : Fin 128) :
    (iblk2 V c 2 t : Vec Ideal S1x128 .f32) (ix2 0 q) = V c main_v65 (ix2 0 q) := by
  show V c main_v65 (((cfg2.win 2).blk t).view.emb (ix2 0 q)) = _; rw [emb2_2_eq]
theorem iblk2_3_apply (c : Dev nD) (t : Fin cfg2.N) (q : Fin 128) :
    (iblk2 V c 3 t : Vec Ideal S1x128 .f32) (ix2 0 q) = V c main_v66 (ix2 0 q) := by
  show V c main_v66 (((cfg2.win 3).blk t).view.emb (ix2 0 q)) = _; rw [emb2_3_eq]
theorem iblk2_4_apply (c : Dev nD) (t : Fin cfg2.N) (q : Fin 128) :
    (iblk2 V c 4 t : Vec Ideal S1x128 .f32) (ix2 0 q) = V c main_v67 (ix2 0 q) := by
  show V c main_v67 (((cfg2.win 4).blk t).view.emb (ix2 0 q)) = _; rw [emb2_4_eq]

/-- The body's result at row `p`, column `q` of point `t`'s block is `bnSpec` at the array index the output's block puts there. -/
theorem bn_block_apply (c : Dev nD) (t : Fin cfg2.N) (p : Fin 5000) (q : Fin 128) :
    k2_pay1 (iblk2 V c 0 t) (iblk2 V c 1 t) (iblk2 V c 2 t) (iblk2 V c 3 t) (iblk2 V c 4 t) (ix2 p q)
      = bnSpec (V c main_v54) (V c main_v64) (V c main_v65) (V c main_v66) (V c main_v67) (((cfg2.win 5).blk t).view.emb (ix2 p q)) := by
  refine (bn_payload_apply (iblk2 V c 0 t) (iblk2 V c 1 t) (iblk2 V c 2 t) (iblk2 V c 3 t) (iblk2 V c 4 t) p q).trans ?_
  rw [iblk2_0_apply, iblk2_1_apply, iblk2_2_apply, iblk2_3_apply, iblk2_4_apply]
  exact (bnSpec_apply (V c main_v54) (V c main_v64) (V c main_v65) (V c main_v66) (V c main_v67) _ q (emb2_5_col t p q)).symm

/-- What grid point `t` writes back to the output array is block `t` of `bnSpec` of the arrays the launch finds. -/
theorem flushed2_5_eq (c : Dev nD) (t : Fin cfg2.N) :
    (dat2 V c).flushed 5 t = ((cfg2.win 5).blk t).view.read (Elt Ideal) (bnSpec (V c main_v54) (V c main_v64) (V c main_v65) (V c main_v66) (V c main_v67)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), (j : S5000x128.Idx) = ix2 p q := ⟨j 0, j 1, eq_ix2 j⟩
  exact bn_block_apply V c t p q

/-- An index of the output array is in point `t`'s block iff each coordinate is in the block's range on its axis. -/
theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v68).slice (win2_5.rect t)).set ↔ _
  rw [View.set_slice_whole, Rect.mem_set_unit]
  exact Iff.rfl

/-- The ten blocks of 5000 rows tile the 50000 rows: row `r` is in the block of point `r / 5000`, which is written back. -/
theorem cover2_5_rows (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 := ⟨⟨(i 0).val / 5000, by show _ < grid2.N; omega⟩, rfl⟩
  obtain ⟨-, -, -, -, -, -, -, -, -, -, e50, e51⟩ := index_facts2 t
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE OUTPUT ARRAY after the normalisation launch: `bnSpec` of the five arrays the launch finds. -/
theorem region2_arr (c : Dev nD) :
    (dat2 (F := Ideal) V c).arrAt 5 cfg2.N = bnSpec (V c main_v54) (V c main_v64) (V c main_v65) (V c main_v66) (V c main_v67) :=
  (dat2 V c).arrAt_eq_of_cover 5 (bnSpec (V c main_v54) (V c main_v64) (V c main_v65) (V c main_v66) (V c main_v67))
    (fun t _ => flushed2_5_eq V c t) cover2_5_rows

end Cert.KernelIdeal.RegionValue

end
-- ==== Proof.KernelValue.lean ====
/-
  The kernel's result as one function of its argument arrays.  The first region leaves the product x · W; the host
  turns it into the aggregate; the second region leaves the column totals of the aggregate and of its squares; the
  host turns these into the column means and variances; the third region leaves, at (p, q),
  max (gamma q · ((agg (p, q) − mean q) · (var q + 1e-5)^(-1/2)) + beta q, 0).
-/
import proofs.«132868_j17540646437112_1_alg».proof.Proof.KernelBoundary2
import proofs.«132868_j17540646437112_1_alg».proof.Proof.RegionStats
import proofs.«132868_j17540646437112_1_alg».proof.Proof.RegionMatmul
import proofs.«132868_j17540646437112_1_alg».proof.Proof.RegionBn

set_option maxRecDepth 16384

noncomputable section

namespace Cert.KernelIdeal.Value

open Cert.KernelIdeal Cert.KernelIdeal.Gen Cert.KernelIdeal.Chain Cert.KernelIdeal.Boundary Cert.KernelIdeal.RegionValue
open Idealize.ShloMosaic Idealize.ShloMosaic.TcCoe Idealize.SL.Sem Idealize.ShloMosaic.ValueIdx

variable (m : (ℓ : Loc nD τ sig) → Buf (Elt Ideal) ℓ) (ρ : Dev nD → PrngReg)

/-- The aggregate of the product x · W. -/
abbrev aggK (c : Dev nD) : FVec Ideal S50000x128 .f32 :=
  aggOf (matmulSpec (m ((c : Thread nD τ).loc main_arg0)) (m ((c : Thread nD τ).loc main_arg3)))
    (m ((c : Thread nD τ).loc main_arg1)) (m ((c : Thread nD τ).loc main_arg2)) (m ((c : Thread nD τ).loc main_arg4))

/-- Its column totals and the column totals of its squares, as rows. -/
abbrev sumK (c : Dev nD) : FVec Ideal S1x128 .f32 := fun j => ∑ r : Fin 50000, aggK m c (ix2 r (j 1))
abbrev sumSqK (c : Dev nD) : FVec Ideal S1x128 .f32 := fun j => ∑ r : Fin 50000, aggK m c (ix2 r (j 1)) * aggK m c (ix2 r (j 1))

/-- The second region's input is the aggregate. -/
theorem agg_at (c : Dev nD) : W5 m ρ c (Proc.devRef .tc main_v54) = aggK m c := by
  rw [W5_v54, W4_v38, region0_arr_spec (V3 m ρ) c]
  have e0 : xArr (V3 m ρ) c = m ((c : Thread nD τ).loc main_arg0) := W3_arg0 m ρ c
  have e3 : wArr (V3 m ρ) c = m ((c : Thread nD τ).loc main_arg3) := W3_arg3 m ρ c
  rw [e0, e3]

/-- The second region's first output: the column totals. -/
theorem sum_at (c : Dev nD) : W6 m ρ c (Proc.devRef .tc main_v55_0) = sumK m c := by
  have e : inArr (V5 m ρ) c = aggK m c := agg_at m ρ c
  rw [W6_v55_0, region1_sum_fun (V5 m ρ) c, e]

/-- Its second output: the column totals of the squares. -/
theorem sumsq_at (c : Dev nD) : W6 m ρ c (Proc.devRef .tc main_v55_1) = sumSqK m c := by
  have e : inArr (V5 m ρ) c = aggK m c := agg_at m ρ c
  rw [W6_v55_1, region1_sumsq_fun (V5 m ρ) c, e]

/-- The result buffer after the run. -/
theorem out_eq (c : Dev nD) : W8 m ρ c (Proc.devRef .tc main_v68)
    = bnSpec (aggK m c) (asRow (meanK (sumK m c))) (asRow (varK (sumK m c) (sumSqK m c)))
        (asRow (m ((c : Thread nD τ).loc main_arg5))) (asRow (m ((c : Thread nD τ).loc main_arg6))) := by
  have h54 : V7 m ρ c main_v54 = aggK m c := (W7_v54 m ρ c).trans ((W6_v54 m ρ c).trans (agg_at m ρ c))
  have h64 : V7 m ρ c main_v64 = asRow (meanK (sumK m c)) := by
    have := W7_v64 m ρ c
    rw [sum_at] at this
    exact this
  have h65 : V7 m ρ c main_v65 = asRow (varK (sumK m c) (sumSqK m c)) := by
    have := W7_v65 m ρ c
    rw [sum_at, sumsq_at] at this
    exact this
  have h66 : V7 m ρ c main_v66 = asRow (m ((c : Thread nD τ).loc main_arg5)) := W7_v66 m ρ c
  have h67 : V7 m ρ c main_v67 = asRow (m ((c : Thread nD τ).loc main_arg6)) := W7_v67 m ρ c
  rw [W8_v68, region2_arr (V7 m ρ) c, h54, h64, h65, h66, h67]

end Cert.KernelIdeal.Value

end
-- ==== Proof.LibReal.lean ====
/-
  Extended reals that are real numbers. An entry of a finite input is one (its absolute value lies below +infinity);
  sums, differences, products, finite sums and quotients by a nonzero real of such entries are again real, and so is the
  value of any f32 pattern whose exponent field is not all ones. What an algebraic law that needs finiteness is applied
  to is first shown to be of this kind.
-/
import Idealize.ShloMosaic.PureOps.Ideal
import Mathlib.Algebra.BigOperators.Group.Finset.Basic

namespace Idealize.ShloMosaic.RealEntries

open Idealize.ShloMosaic

/-- The extended real `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A quotient by a nonzero real. -/
theorem IsReal.div_coe {a : EReal} (ha : IsReal a) {y : ℝ} (hy : y ≠ 0) : IsReal (Ideal.div a (y : EReal)) := by
  rw [Ideal.div_coe hy]; exact ha.mul (IsReal.coe _)

/-- An f32 pattern whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split_ifs <;> exact ⟨_, rfl⟩

/-- An extended real whose absolute value lies below +infinity is a real number. -/
theorem isReal_of_abs_lt_top {a : EReal} (h : max a (-a) < ⊤) : IsReal a := by
  induction a using EReal.rec with
  | bot => simp at h
  | coe r => exact ⟨r, rfl⟩
  | top => simp at h

end Idealize.ShloMosaic.RealEntries
-- ==== Proof.AggReal.lean ====
/-
  Every entry of the aggregate is a real number when every entry of the product h and of the bias is.
  The weights are the patterns 1.0 and 0.0; a degree is zero plus a finite sum of weights; the inverse square root
  of a real kept at or above the positive constant 1e-12 is a real; a selection, a gather or a broadcast only moves
  entries; products and finite sums of reals are reals.
-/
import proofs.«132868_j17540646437112_1_alg».proof.Proof.KernelChain
import proofs.«132868_j17540646437112_1_alg».proof.Proof.LibReal
import Idealize.ShloMosaic.PureOps.Ideal.Laws

set_option maxRecDepth 65536

noncomputable section

namespace Cert.KernelIdeal.AggReal

open Cert.KernelIdeal Cert.KernelIdeal.Chain Cert.KernelIdeal.Facts₀ Idealize.ShloMosaic Idealize.ShloMosaic.RealEntries

/-- Every entry of the array is a real number. -/
def AllReal {S : Shape} (v : FVec Ideal S .f32) : Prop := ∀ i, IsReal (v i)

theorem allReal_bcast {s t : Shape} (dims : Fin s.rank → Fin t.rank) (h : s.BroadcastsInDim t dims) (x : FVec Ideal s .f32)
    (hx : AllReal x) : AllReal (broadcastInDim t dims h x) := fun _ => hx _

theorem allReal_gather {s si t : Shape} {w : Nat} (d : GatherDims s si t) (x : FVec Ideal s .f32) (idx : IVec si w)
    (hx : AllReal x) : AllReal (Host.gather d x idx) := fun _ => hx _

theorem allReal_mulf {S : Shape} (x y : FVec Ideal S .f32) (hx : AllReal x) (hy : AllReal y) : AllReal (mulf x y) :=
  fun i => (hx i).mul (hy i)

theorem allReal_addf {S : Shape} (x y : FVec Ideal S .f32) (hx : AllReal x) (hy : AllReal y) : AllReal (addf x y) :=
  fun i => (hx i).add (hy i)

theorem allReal_const (S : Shape) (b : BitVec 32) (hb : (b.extractLsb' 23 8).toNat ≠ 2 ^ 8 - 1) :
    AllReal (constant (F := Ideal) S .f32 b) := fun _ => isReal_ofBits_f32 b hb

theorem allReal_select {S : Shape} (c : IVec S 1) (a b : FVec Ideal S .f32) (ha : AllReal a) (hb : AllReal b) :
    AllReal (select c a b) := fun i => by
  show IsReal (Scalar.select (c i) (a i) (b i))
  unfold Scalar.select
  split
  · exact ha i
  · exact hb i

theorem allReal_scatterAdd {s si su : Shape} {w : Nat} (d : ScatterDims s si su) (x : FVec Ideal s .f32) (idx : IVec si w)
    (upd : FVec Ideal su .f32) (hx : AllReal x) (hu : AllReal upd) : AllReal (Host.scatterAdd (F := Ideal) d x idx upd) :=
  fun i => (hx i).add (IsReal.sum _ _ fun j _ => hu j)

/-- An entry of a concatenation is an entry of one of the pieces. -/
theorem allReal_concat (t : Shape) (a : Fin t.rank) (xs : List ((s : Shape) × (s.Idx → EReal)))
    (h : Shape.Concatenates (xs.map (·.1)) t a) (hall : ∀ p ∈ xs, ∀ i, IsReal (p.2 i)) :
    ∀ j, IsReal (concatenate t a xs h j) := fun j => by
  unfold concatenate
  exact hall _ (List.getElem_mem _) _

/-- The constant 1e-12 is a positive real. -/
theorem tiny_pos : ∃ r : ℝ, 0 < r ∧ Ideal.ofBits .f32 0x2B8CBCCC#32 = (r : EReal) := by
  refine ⟨(9223372 : ℝ) * (2 : ℝ) ^ (-63 : ℤ), by positivity, ?_⟩
  simp [Ideal.ofBits, Ideal.ieee, -EReal.coe_mul]

/-- The inverse square root of a real kept at or above a positive real is a real. -/
theorem isReal_rsqrt_max {a e : EReal} (ha : IsReal a) {r : ℝ} (he : e = (r : EReal)) (hr : 0 < r) :
    IsReal (Ideal.rsqrt (max a e)) := by
  obtain ⟨x, rfl⟩ := ha
  subst he
  have hm : max (x : EReal) (r : EReal) = ((max x r : ℝ) : EReal) := by
    rcases le_total x r with h | h
    · rw [max_eq_right h, max_eq_right (EReal.coe_le_coe_iff.mpr h)]
    · rw [max_eq_left h, max_eq_left (EReal.coe_le_coe_iff.mpr h)]
  have hpos : 0 < max x r := lt_max_of_lt_right hr
  rw [hm, Ideal.rsqrt_coe, if_neg (not_lt.mpr hpos.le), if_neg hpos.ne']
  exact ⟨_, rfl⟩

theorem wts_real : AllReal wts := by
  have one : IsReal (Ideal.ofBits .f32 0x3F800000#32) := isReal_ofBits_f32 _ (by decide)
  have zero : IsReal (Ideal.ofBits .f32 0x00000000#32) := isReal_ofBits_f32 _ (by decide)
  unfold wts
  refine allReal_concat _ _ _ _ fun p hp => ?_
  simp only [List.mem_cons, List.mem_nil_iff, or_false] at hp
  rcases hp with rfl | rfl
  · refine allReal_concat S600000 0 [⟨S500000, _⟩, ⟨S100000, _⟩] concatenates_S500000_S100000_S600000_d0 fun q hq => ?_
    simp only [List.mem_cons, List.mem_nil_iff, or_false] at hq
    rcases hq with rfl | rfl
    · exact fun _ => one
    · exact fun _ => zero
  · exact fun _ => one

theorem deg_real (a1 : CI S2x500000) (a2 : CI S2x100000) : AllReal (deg a1 a2) := fun i =>
  IsReal.add (isReal_ofBits_f32 0x00000000#32 (by decide)) (IsReal.sum _ _ fun j _ => wts_real j)

theorem degRsqrt_real (a1 : CI S2x500000) (a2 : CI S2x100000) : AllReal (degRsqrt a1 a2) := fun i => by
  obtain ⟨r, hr, he⟩ := tiny_pos
  have h := isReal_rsqrt_max (deg_real a1 a2 i) he hr
  unfold degRsqrt Host.rsqrt maximumf
  simp only [Ideal.hostUnary_rsqrt_def, Ideal.maximumf_def]
  exact h

theorem dis_real (a1 : CI S2x500000) (a2 : CI S2x100000) : AllReal (dis a1 a2) := by
  unfold dis
  exact allReal_select _ _ _ (degRsqrt_real a1 a2) (allReal_bcast _ _ _ (allReal_const _ _ (by decide)))

theorem coef_real (a1 : CI S2x500000) (a2 : CI S2x100000) : AllReal (coef a1 a2) := by
  unfold coef
  exact allReal_mulf _ _ (allReal_mulf _ _ (allReal_gather _ _ _ (dis_real a1 a2)) wts_real) (allReal_gather _ _ _ (dis_real a1 a2))

theorem msgs_real (h : CF S50000x128) (a1 : CI S2x500000) (a2 : CI S2x100000) (hh : AllReal h) : AllReal (msgs h a1 a2) := by
  unfold msgs
  exact allReal_mulf _ _ (allReal_bcast _ _ _ (allReal_bcast _ _ _ (coef_real a1 a2))) (allReal_gather _ _ _ hh)

/-- The aggregate of a real product and a real bias is real. -/
theorem aggOf_real (h : CF S50000x128) (a1 : CI S2x500000) (a2 : CI S2x100000) (a4 : CF S128) (hh : AllReal h) (h4 : AllReal a4) :
    AllReal (aggOf h a1 a2 a4) := by
  unfold aggOf
  exact allReal_addf _ _ (allReal_scatterAdd _ _ _ _ (allReal_bcast _ _ _ (allReal_const _ _ (by decide))) (msgs_real h a1 a2 hh))
    (allReal_bcast _ _ _ (allReal_bcast _ _ _ h4))

end Cert.KernelIdeal.AggReal

end
-- ==== Proof.ChainEq.lean ====
/-
  The stages up to the aggregate are written once for the kernel's program and once for its reference, over each
  program's own shape names, dimension records and stated facts.  The shapes are the same literals, the records have
  equal fields, and the facts are proofs: the two families of definitions are equal, stage by stage.
-/
import proofs.«132868_j17540646437112_1_alg».proof.Proof.KernelChain
import proofs.«132868_j17540646437112_1_alg».proof.Proof.RefChain

noncomputable section

namespace Cert.ChainEq

open Idealize.ShloMosaic

theorem edges_eq (a1 : IVec Cert.KernelIdeal.S2x500000 32) (a2 : IVec Cert.KernelIdeal.S2x100000 32) : Cert.KernelIdeal.Chain.edges a1 a2 = Cert.ReferenceIdeal.Chain.edges a1 a2 := rfl
theorem loops_eq : Cert.KernelIdeal.Chain.loops = Cert.ReferenceIdeal.Chain.loops := rfl
theorem rowIdx_eq (a1 : IVec Cert.KernelIdeal.S2x500000 32) (a2 : IVec Cert.KernelIdeal.S2x100000 32) : Cert.KernelIdeal.Chain.rowIdx a1 a2 = Cert.ReferenceIdeal.Chain.rowIdx a1 a2 := rfl
theorem colIdx_eq (a1 : IVec Cert.KernelIdeal.S2x500000 32) (a2 : IVec Cert.KernelIdeal.S2x100000 32) : Cert.KernelIdeal.Chain.colIdx a1 a2 = Cert.ReferenceIdeal.Chain.colIdx a1 a2 := rfl
theorem wts_eq : Cert.KernelIdeal.Chain.wts = Cert.ReferenceIdeal.Chain.wts := rfl
theorem deg_eq (a1 : IVec Cert.KernelIdeal.S2x500000 32) (a2 : IVec Cert.KernelIdeal.S2x100000 32) : Cert.KernelIdeal.Chain.deg a1 a2 = Cert.ReferenceIdeal.Chain.deg a1 a2 := rfl
theorem degPos_eq (a1 : IVec Cert.KernelIdeal.S2x500000 32) (a2 : IVec Cert.KernelIdeal.S2x100000 32) : Cert.KernelIdeal.Chain.degPos a1 a2 = Cert.ReferenceIdeal.Chain.degPos a1 a2 := rfl
theorem degRsqrt_eq (a1 : IVec Cert.KernelIdeal.S2x500000 32) (a2 : IVec Cert.KernelIdeal.S2x100000 32) : Cert.KernelIdeal.Chain.degRsqrt a1 a2 = Cert.ReferenceIdeal.Chain.degRsqrt a1 a2 := rfl
theorem dis_eq (a1 : IVec Cert.KernelIdeal.S2x500000 32) (a2 : IVec Cert.KernelIdeal.S2x100000 32) : Cert.KernelIdeal.Chain.dis a1 a2 = Cert.ReferenceIdeal.Chain.dis a1 a2 := rfl
theorem wrapIdx_eq (v : IVec Cert.KernelIdeal.S650000 32) : Cert.KernelIdeal.Chain.wrapIdx v = Cert.ReferenceIdeal.Chain.wrapIdx v := rfl
theorem coef_eq (a1 : IVec Cert.KernelIdeal.S2x500000 32) (a2 : IVec Cert.KernelIdeal.S2x100000 32) : Cert.KernelIdeal.Chain.coef a1 a2 = Cert.ReferenceIdeal.Chain.coef a1 a2 := rfl
theorem msgs_eq (h : FVec Ideal Cert.KernelIdeal.S50000x128 .f32) (a1 : IVec Cert.KernelIdeal.S2x500000 32) (a2 : IVec Cert.KernelIdeal.S2x100000 32) : Cert.KernelIdeal.Chain.msgs h a1 a2 = Cert.ReferenceIdeal.Chain.msgs h a1 a2 := rfl

/-- The aggregate of a product `h` is the same function of the arguments in both programs. -/
theorem aggOf_eq (h : FVec Ideal Cert.KernelIdeal.S50000x128 .f32) (a1 : IVec Cert.KernelIdeal.S2x500000 32) (a2 : IVec Cert.KernelIdeal.S2x100000 32) (a4 : FVec Ideal Cert.KernelIdeal.S128 .f32) :
    Cert.KernelIdeal.Chain.aggOf h a1 a2 a4 = Cert.ReferenceIdeal.Chain.aggOf h a1 a2 a4 := rfl

end Cert.ChainEq

end
-- ==== Proof.RefStats.lean ====
/-
  The reference's batch normalisation read at an index.  At column q the mean is (0 + the sum over the 50000 rows of
  the aggregate) / 50000; the variance routine's divisor is 50000 − 0 = 50000, which is positive, so the variance is
  (0 + the sum over the rows of the squared deviations from that mean) / 50000; and the result at (p, q) is
  max (gamma q · ((agg (p, q) − mean q) · (var q + 1e-5)^(-1/2)) + beta q, 0).
-/
import proofs.«132868_j17540646437112_1_alg».proof.Proof.RefChain
import Idealize.ShloMosaic.PureOps.Ideal.Laws
import Idealize.ShloMosaic.Lib.ValueIdx
import Idealize.ShloMosaic.Lib.ValueLayout

noncomputable section

namespace Cert.ReferenceIdeal.Stats

open Cert.ReferenceIdeal Cert.ReferenceIdeal.Chain Cert.ReferenceIdeal.Facts₀ Idealize.ShloMosaic Idealize.ShloMosaic.ValueIdx

/-- The pattern 50000.0 denotes the real 50000. -/
theorem ofBits_50000 : Ideal.ofBits .f32 0x47435000#32 = ((50000 : ℝ) : EReal) := by
  simp [Ideal.ofBits, Ideal.ieee, -EReal.coe_mul]; norm_num

/-- A vector as a [1,128] row reads the vector at the column. -/
theorem asRowR_apply (v : CF S128) (u : Fin 1) (q : Fin 128) : asRowR v (ix2 u q) = v (ix1 q) := by
  unfold asRowR broadcastInDim
  refine congrArg v ?_
  funext a
  match a with
  | ⟨0, _⟩ => rfl

/-- A row repeated down the rows reads the row at the column. -/
theorem downRows_apply (r : CF S1x128) (p : Fin 50000) (q : Fin 128) : downRows r (ix2 p q) = r (ix2 (0 : Fin 1) q) := by
  unfold downRows broadcastInDim
  refine congrArg r ?_
  funext a
  match a with
  | ⟨0, _⟩ => rfl
  | ⟨1, _⟩ => rfl

/-- The column totals, from zero. -/
theorem colSum_apply (x : CF S50000x128) (q : Fin 128) : colSum x (ix1 q) = 0 + ∑ r : Fin 50000, x (ix2 r q) := by
  have hR : S50000x128.Reduces [0] S128 := by decide
  unfold colSum Host.reduceAdd
  rw [Ideal.hostReduceAdd_def, Ideal.hostReduceAdd_single reducesTo_S50000x128_S128_d0 hR]
  show Ideal.ofBits .f32 0x00000000#32 + ∑ k : Fin 50000, x (hR.lift (ix1 q) k) = _
  rw [Ideal.ofBits_zero_f32]
  refine congrArg (0 + ·) (Finset.sum_congr rfl fun k _ => congrArg x ?_)
  funext a
  match a with
  | ⟨0, _⟩ => exact Fin.ext rfl
  | ⟨1, _⟩ => exact Fin.ext rfl

/-- The column mean. -/
theorem meanR_apply (agg : CF S50000x128) (q : Fin 128) :
    meanR agg (ix1 q) = Ideal.div (0 + ∑ r : Fin 50000, agg (ix2 r q)) ((50000 : ℝ) : EReal) := by
  show Ideal.div (colSum agg (ix1 q)) (Ideal.ofBits .f32 0x47435000#32) = _
  rw [colSum_apply, ofBits_50000]

/-- The variance routine's own mean, as a row. -/
theorem varMean_apply (agg : CF S50000x128) (q : Fin 128) :
    varMean agg (ix2 (0 : Fin 1) q) = Ideal.div (0 + ∑ r : Fin 50000, agg (ix2 r q)) ((50000 : ℝ) : EReal) := by
  show Ideal.div (asRowR (colSum agg) (ix2 (0 : Fin 1) q)) (Ideal.ofBits .f32 0x47435000#32) = _
  rw [asRowR_apply, colSum_apply, ofBits_50000]

/-- A deviation from the column mean. -/
theorem centered_apply (agg : CF S50000x128) (p : Fin 50000) (q : Fin 128) :
    centered agg (ix2 p q) = agg (ix2 p q) - Ideal.div (0 + ∑ r : Fin 50000, agg (ix2 r q)) ((50000 : ℝ) : EReal) := by
  show agg (ix2 p q) - downRows (varMean agg) (ix2 p q) = _
  rw [downRows_apply, varMean_apply]

/-- The divisor: 50000 − 0. -/
theorem count_eq (j : S_.Idx) : count j = ((50000 : ℝ) : EReal) := by
  show Ideal.ofBits .f32 0x47435000#32 - (((0#32 : BitVec 32).toInt : ℝ) : EReal) = _
  rw [ofBits_50000]
  simp

/-- The column variance: the divisor is positive, so the selection takes the quotient. -/
theorem varR_apply (agg : CF S50000x128) (q : Fin 128) :
    varR agg (ix1 q) = Ideal.div (0 + ∑ r : Fin 50000, centered agg (ix2 r q) * centered agg (ix2 r q)) ((50000 : ℝ) : EReal) := by
  have hc : ∀ j : S_.Idx, cmpf .ogt count (constant (F := Ideal) S_ .f32 0x00000000#32) j = 1#1 := fun j => by
    show Ideal.cmp .ogt (count j) (Ideal.ofBits .f32 0x00000000#32) = 1#1
    rw [count_eq, Ideal.ofBits_zero_f32]
    simp [Ideal.cmp]
  show Scalar.select (cmpf .ogt count (constant (F := Ideal) S_ .f32 0x00000000#32) _)
      (Ideal.div (colSum (mulf (centered agg) (centered agg)) (ix1 q)) (count _)) _ = _
  rw [hc, select_one, colSum_apply, count_eq]
  rfl

/-- The reference's result at (p, q). -/
theorem bnOf_apply (agg : CF S50000x128) (a5 a6 : CF S128) (p : Fin 50000) (q : Fin 128) :
    bnOf agg a5 a6 (ix2 p q)
      = max (a5 (ix1 q) * ((agg (ix2 p q) - meanR agg (ix1 q)) * Ideal.rsqrt (varR agg (ix1 q) + Ideal.ofBits .f32 0x3727C5AC#32))
          + a6 (ix1 q)) 0 := by
  show max (downRows (asRowR a5) (ix2 p q) * ((agg (ix2 p q) - downRows (asRowR (meanR agg)) (ix2 p q))
      * downRows (asRowR (Host.rsqrt (F := Ideal) (addf (varR agg) (broadcastInDim S128 ![] bcast_S_S128 (constant (F := Ideal) S_ .f32 0x3727C5AC#32))))) (ix2 p q))
      + downRows (asRowR a6) (ix2 p q)) (Ideal.ofBits .f32 0x00000000#32) = _
  rw [downRows_apply, downRows_apply, downRows_apply, downRows_apply, asRowR_apply, asRowR_apply, asRowR_apply, asRowR_apply,
    Ideal.ofBits_zero_f32]
  rfl

end Cert.ReferenceIdeal.Stats

end
-- ==== Proof.LibMoments.lean ====
/-
  Moments of finitely many reals, and the two forms of an affine normalisation, on the extended reals.
  With every sample a real number, a mean is a real, the mean of the squared deviations from the mean is the mean of
  the squares less the square of the mean, and `(x - m) / s * w + b = x * (w / s) + (b - m * (w / s))` for a nonzero
  real `s`; the quotients are the extended reals' (a product with the reciprocal of a nonzero real divisor).
  None of these survives an infinite entry (each moves a factor across a sum), which is why they are stated over reals.
-/
import Idealize.ShloMosaic.PureOps.Ideal
import Mathlib.Algebra.BigOperators.Field
import Mathlib.Tactic.FieldSimp
import Mathlib.Tactic.Ring
import Mathlib.Tactic.NormNum

namespace Idealize.ShloMosaic.Moments

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squared deviations from the mean is the mean of the squares less the square of the
    mean (`N` the number of samples). -/
theorem mean_sq_dev {ι : Type*} [Fintype ι] (x : ι → ℝ) (N : ℝ) (hN : N ≠ 0) (hcard : (Fintype.card ι : ℝ) = N) :
    (∑ i, (x i - (∑ j, x j) / N) * (x i - (∑ j, x j) / N)) / N
      = (∑ i, x i * x i) / N - ((∑ j, x j) / N) * ((∑ j, x j) / N) := by
  have hS : ∑ j, x j = N * ((∑ j, x j) / N) := by field_simp
  generalize (∑ j, x j) / N = μ at hS ⊢
  have hexp : ∀ i, (x i - μ) * (x i - μ) = x i * x i - 2 * μ * x i + μ * μ := fun i => by ring
  have h1 : ∑ i, (x i - μ) * (x i - μ) = (∑ i, x i * x i) - 2 * μ * (∑ i, x i) + N * (μ * μ) := by
    simp only [hexp, Finset.sum_add_distrib, Finset.sum_sub_distrib, ← Finset.mul_sum, Finset.sum_const,
      Finset.card_univ, nsmul_eq_mul, hcard]
    ring
  rw [h1, hS]
  field_simp
  ring

/-- A mean of reals on the extended reals is the real mean. -/
theorem div_sum_coe {ι : Type*} [Fintype ι] (r : ι → ℝ) (N : ℝ) (hN : N ≠ 0) :
    Ideal.div (∑ i, (r i : EReal)) (N : EReal) = (((∑ i, r i) / N : ℝ) : EReal) := by
  rw [← coe_sum, Ideal.div_coe hN, ← EReal.coe_mul]
  congr 1
  field_simp

/-- On the extended reals, every sample a real: the mean of the squared deviations from the mean is the mean of the
    squares less the square of the mean. -/
theorem var_centered_eq {ι : Type*} [Fintype ι] (r : ι → ℝ) (N : ℝ) (hN : N ≠ 0) (hcard : (Fintype.card ι : ℝ) = N) :
    Ideal.div (∑ i, ((r i : EReal) - Ideal.div (∑ j, (r j : EReal)) (N : EReal))
        * ((r i : EReal) - Ideal.div (∑ j, (r j : EReal)) (N : EReal))) (N : EReal)
      = Ideal.div (∑ i, (r i : EReal) * (r i : EReal)) (N : EReal)
        - Ideal.div (∑ j, (r j : EReal)) (N : EReal) * Ideal.div (∑ j, (r j : EReal)) (N : EReal) := by
  rw [div_sum_coe r N hN]
  have e1 : ∀ i, ((r i : EReal) - (((∑ j, r j) / N : ℝ) : EReal)) * ((r i : EReal) - (((∑ j, r j) / N : ℝ) : EReal))
      = (((r i - (∑ j, r j) / N) * (r i - (∑ j, r j) / N) : ℝ) : EReal) := fun i => by
    rw [← EReal.coe_sub, ← EReal.coe_mul]
  have e2 : ∀ i, (r i : EReal) * (r i : EReal) = ((r i * r i : ℝ) : EReal) := fun i => (EReal.coe_mul _ _).symm
  simp only [e1, e2]
  rw [div_sum_coe _ N hN, div_sum_coe _ N hN, ← EReal.coe_mul, ← EReal.coe_sub, mean_sq_dev r N hN hcard]

/-- The two forms of an affine normalisation agree for a nonzero real divisor. -/
theorem affine_forms (x m w b s : ℝ) (hs : s ≠ 0) :
    Ideal.div ((x : EReal) - (m : EReal)) (s : EReal) * (w : EReal) + (b : EReal)
      = (x : EReal) * Ideal.div (w : EReal) (s : EReal) + ((b : EReal) - (m : EReal) * Ideal.div (w : EReal) (s : EReal)) := by
  rw [Ideal.div_coe hs, Ideal.div_coe hs]
  rw [← EReal.coe_sub, ← EReal.coe_mul, ← EReal.coe_mul, ← EReal.coe_add, ← EReal.coe_mul, ← EReal.coe_mul, ← EReal.coe_mul,
    ← EReal.coe_sub, ← EReal.coe_add]
  congr 1
  field_simp
  ring

/-- The square root of a positive real, on the extended reals, is a nonzero real. -/
theorem sqrt_pos_coe {r : ℝ} (hr : 0 < r) : Ideal.sqrt (r : EReal) = ((Real.sqrt r : ℝ) : EReal) ∧ Real.sqrt r ≠ 0 := by
  refine ⟨?_, (Real.sqrt_pos.mpr hr).ne'⟩
  rw [Ideal.sqrt_coe, if_neg (not_lt.mpr hr.le)]

end Idealize.ShloMosaic.Moments
-- ==== Proof.BnBridge.lean ====
/-
  The normalisation computed from the column totals and the column totals of the squares (the kernel's program: mean =
  total / 50000, variance = total of squares / 50000 − mean²) is the one computed from the deviations from the column
  means (the reference: variance = total of the squared deviations / 50000), when every entry of the array is a real
  number: the mean of the squared deviations from the mean is the mean of the squares less the square of the mean.
  The scale and the shift need not be finite: they enter both sides in the same places.
-/
import proofs.«132868_j17540646437112_1_alg».proof.Proof.RefStats
import proofs.«132868_j17540646437112_1_alg».proof.Proof.KernelChain
import proofs.«132868_j17540646437112_1_alg».proof.Proof.RegionBn
import proofs.«132868_j17540646437112_1_alg».proof.Proof.LibMoments
import proofs.«132868_j17540646437112_1_alg».proof.Proof.LibReal
import Idealize.ShloMosaic.Lib.ValueIdx
import Idealize.ShloMosaic.Lib.ValueLayout

noncomputable section

namespace Cert.BnBridge

open Idealize.ShloMosaic Idealize.ShloMosaic.ValueIdx
open Cert.KernelIdeal.Chain (meanK varK asRow)
open Cert.ReferenceIdeal.Chain (bnOf meanR varR centered)
open Cert.ReferenceIdeal.Stats

/-- A vector as a [1,128] row (by a reshape) reads the vector at the column. -/
theorem asRow_apply (v : FVec Ideal Cert.KernelIdeal.S128 .f32) (q : Fin 128) : asRow v (ix2 (0 : Fin 1) q) = v (ix1 q) :=
  shapeCast_a_1a_apply v _ 0 q

/-- The mean from the column totals: total / 50000. -/
theorem meanK_apply (S : FVec Ideal Cert.KernelIdeal.S1x128 .f32) (q : Fin 128) :
    meanK S (ix1 q) = Ideal.div (S (ix2 (0 : Fin 1) q)) ((50000 : ℝ) : EReal) := by
  show Ideal.div (shapeCast Cert.KernelIdeal.S128 S _ (ix1 q)) (Ideal.ofBits .f32 0x47435000#32) = _
  rw [shapeCast_1a_a_apply, ofBits_50000]

/-- The variance from the column totals: total of squares / 50000 − mean². -/
theorem varK_apply (S SS : FVec Ideal Cert.KernelIdeal.S1x128 .f32) (q : Fin 128) :
    varK S SS (ix1 q)
      = Ideal.div (SS (ix2 (0 : Fin 1) q)) ((50000 : ℝ) : EReal)
        - Ideal.div (S (ix2 (0 : Fin 1) q)) ((50000 : ℝ) : EReal) * Ideal.div (S (ix2 (0 : Fin 1) q)) ((50000 : ℝ) : EReal) := by
  show Ideal.div (shapeCast Cert.KernelIdeal.S128 SS _ (ix1 q)) (Ideal.ofBits .f32 0x47435000#32) - meanK S (ix1 q) * meanK S (ix1 q) = _
  rw [shapeCast_1a_a_apply, ofBits_50000, meanK_apply]

/-- With every entry of `agg` a real number, `S` its column totals and `SS` the column totals of its squares: the
    normalisation from the totals is the reference's. -/
theorem bn_bridge (agg : FVec Ideal Cert.KernelIdeal.S50000x128 .f32) (hagg : ∀ i, Idealize.ShloMosaic.RealEntries.IsReal (agg i))
    (a5 a6 : FVec Ideal Cert.KernelIdeal.S128 .f32) (S SS : FVec Ideal Cert.KernelIdeal.S1x128 .f32)
    (hS : ∀ j, S j = ∑ r : Fin 50000, agg (ix2 r (j 1)))
    (hSS : ∀ j, SS j = ∑ r : Fin 50000, agg (ix2 r (j 1)) * agg (ix2 r (j 1))) :
    Cert.KernelIdeal.RegionValue.bnSpec agg (asRow (meanK S)) (asRow (varK S SS)) (asRow a5) (asRow a6) = bnOf agg a5 a6 := by
  funext i
  obtain ⟨p, q, rfl⟩ : ∃ (p : Fin 50000) (q : Fin 128), i = ix2 p q := ⟨i 0, i 1, eq_ix2 i⟩
  have hSq : S (ix2 (0 : Fin 1) q) = ∑ r : Fin 50000, agg (ix2 r q) := hS (ix2 (0 : Fin 1) q)
  have hSSq : SS (ix2 (0 : Fin 1) q) = ∑ r : Fin 50000, agg (ix2 r q) * agg (ix2 r q) := hSS (ix2 (0 : Fin 1) q)
  rw [Cert.KernelIdeal.RegionValue.bnSpec_apply _ _ _ _ _ (ix2 p q) q rfl, bnOf_apply, asRow_apply, asRow_apply, asRow_apply, asRow_apply,
    meanK_apply, varK_apply, hSq, hSSq, meanR_apply, varR_apply]
  simp only [centered_apply, zero_add]
  choose f hf using hagg
  simp only [hf]
  rw [Idealize.ShloMosaic.Moments.var_centered_eq (fun k : Fin 50000 => f (ix2 k q)) 50000 (by norm_num) (by simp)]

end Cert.BnBridge

end
-- ==== Proof.PreReal.lean ====
/- The precondition "every float input is finite", decoded. The precondition is the conjunction of
   five tests, one per float input, each the conjunction over all entries of "the absolute value compares strictly below
   +infinity". At the extended reals that comparison says `max x (-x) < ⊤`, and an extended real with that property is a
   real number. So under the precondition every entry of each float input is a real number. -/
import proofs.«132868_j17540646437112_1_alg».proof.Proof.Gen.Pre_finite_inputs
import proofs.«132868_j17540646437112_1_alg».proof.Proof.LibReal
import Idealize.ShloMosaic.Lib.ReduceAll
import Idealize.ShloMosaic.Lib.ValueIdx
import Idealize.ShloMosaic.PureOps.Ideal.Laws

noncomputable section

namespace Cert.PreReal

open Idealize.ShloMosaic Idealize.ShloMosaic.RealEntries Cert.Pre_finite_inputs

/-- The rank-0 shape has one index. -/
instance : Subsingleton S_.Idx := ⟨fun a b => funext fun d => d.elim0⟩

/-- A one-bit word made from a truth value is 1 exactly when the value is true. -/
theorem ofBool_eq_one (b : Bool) : BitVec.ofBool b = 1#1 ↔ b = true := by cases b <;> decide

/-- The f32 pattern with exponent field all ones and fraction zero is +infinity. -/
theorem inf_pattern : Ideal.ofBits .f32 0x7F800000#32 = ⊤ := by simp [Ideal.ofBits, Ideal.ieee]

/-- An extended real whose absolute value compares strictly below the +infinity pattern is a real number. -/
theorem isReal_of_abs_lt_inf (x : EReal)
    (h : Ideal.cmp .olt (max x (-x)) (Ideal.ofBits .f32 0x7F800000#32) = 1#1) : IsReal x := by
  rw [inf_pattern] at h
  unfold Ideal.cmp at h
  rw [ofBool_eq_one] at h
  exact isReal_of_abs_lt_top (of_decide_eq_true h)

/-- A conjunction of two one-bit arrays is 1 at an index exactly when both are. -/
theorem andi_apply_eq_one {s : Shape} (x y : IVec s 1) (i : s.Idx) : andi x y i = 1#1 ↔ x i = 1#1 ∧ y i = 1#1 :=
  IntOp.andi_eq_one

/-- One test of the precondition: when the conjunction over all entries of "the absolute value lies strictly below
    +infinity" is 1, every entry of the array is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ValueIdx.ix0 = 1#1) (i : s.Idx) : IsReal (a i) :=
  isReal_of_abs_lt_inf (a i) (Host.reduce_andi_all _ _ hr hu ValueIdx.ix0 e i)

/-- THE PRECONDITION DECODED: when every float input is finite, every entry of each float input is a real number. -/
theorem reals_of_pre (a0 : FVec Ideal S50000x128 .f32) (a1 : IVec S2x500000 32) (a2 : IVec S2x100000 32) (a3 : FVec Ideal S128x128 .f32)
    (a4 a5 a6 : FVec Ideal S128 .f32) (h : Cert.Pre_finite_inputs.fn (F := Ideal) a0 a1 a2 a3 a4 a5 a6 = fun _ => 1#1) :
    (∀ i, IsReal (a0 i)) ∧ (∀ i, IsReal (a3 i)) ∧ (∀ i, IsReal (a4 i)) ∧ (∀ i, IsReal (a5 i)) ∧ (∀ i, IsReal (a6 i)) := by
  have e := congrFun h ValueIdx.ix0
  dsimp only [Cert.Pre_finite_inputs.fn, Cert.Pre_finite_inputs.fn_part1] at e
  rw [andi_apply_eq_one, andi_apply_eq_one, andi_apply_eq_one, andi_apply_eq_one] at e
  obtain ⟨⟨⟨⟨e0, e3⟩, e4⟩, e5⟩, e6⟩ := e
  exact ⟨all_real a0 _ _ _ e0, all_real a3 _ _ _ e3, all_real a4 _ _ _ e4, all_real a5 _ _ _ e5, all_real a6 _ _ _ e6⟩

end Cert.PreReal

end
-- ==== Proof.RefDot.lean ====
/-
  The reference's matrix product, over the extended reals: the host's plain product of a [50000,128] matrix by a
  [128,128] matrix (contract the left operand's columns with the right operand's rows, no batch axis) is, entry by
  entry, the sum over k < 128 of x(r, k) * w(k, c).
-/
import proofs.«132868_j17540646437112_1_alg».proof.Proof.Gen.ReferenceIdeal
import proofs.«132868_j17540646437112_1_alg».proof.Proof.MatmulSpec
import Idealize.ShloMosaic.Lib.ValueIdx
import Idealize.ShloMosaic.Lib.StackMember

noncomputable section

open Idealize.ShloMosaic Idealize.ShloMosaic.ValueIdx

namespace Cert.KernelIdeal.RegionValue

/-- The reference's dimension numbers are the plain product's. -/
theorem ref_dims_plain :
    Cert.ReferenceIdeal.dot_S50000x128_S128x128_S50000x128_1_0_0_1_n_n = DotDims.plain 50000 128 128 := rfl

/-- The reference's product is the entrywise sum of products. -/
theorem dot_eq (x : FVec Ideal ⟨2, ![50000, 128]⟩ .f32) (w : FVec Ideal ⟨2, ![128, 128]⟩ .f32) :
    Host.dotGeneral (F := Ideal) Cert.ReferenceIdeal.dot_S50000x128_S128x128_S50000x128_1_0_0_1_n_n none x w
      = matmulSpec x w := by
  funext i
  obtain ⟨r, c, rfl⟩ : ∃ (r : Fin 50000) (c : Fin 128), i = ix2 r c := ⟨i 0, i 1, eq_ix2 i⟩
  rw [ref_dims_plain]
  exact StackMember.dotGeneral_plain_apply none x w r c

end Cert.KernelIdeal.RegionValue

end
-- ==== Proof.MatmulReal.lean ====
/-
  Every entry of the product of two matrices of real numbers is a real number: an entry is a finite sum of products
  of entries.
-/
import proofs.«132868_j17540646437112_1_alg».proof.Proof.MatmulSpec
import proofs.«132868_j17540646437112_1_alg».proof.Proof.LibReal

noncomputable section

open Idealize.ShloMosaic Idealize.ShloMosaic.ValueIdx Idealize.ShloMosaic.RealEntries

namespace Cert.KernelIdeal.RegionValue

/-- The product of two real matrices is real, entry by entry. -/
theorem matmulSpec_real (x : FVec Ideal ⟨2, ![50000, 128]⟩ .f32) (w : FVec Ideal ⟨2, ![128, 128]⟩ .f32)
    (hx : ∀ i, IsReal (x i)) (hw : ∀ i, IsReal (w i)) : ∀ i, IsReal (matmulSpec x w i) := fun i =>
  IsReal.sum Finset.univ (fun k : Fin 128 => x (ix2 (i 0) k) * w (ix2 k (i 1))) fun k _ => (hx _).mul (hw _)

end Cert.KernelIdeal.RegionValue

end
-- ==== Proof.Final.lean ====
/-
  The idealized kernel's result is the reference's function of the arguments, when every float input is finite.

  What the kernel's program leaves in its result buffer is the normalisation, computed from the column totals and the
  column totals of the squares, of the aggregate of the matrix product of the first and fourth arguments. The
  reference normalises the same aggregate from the deviations from the column means. The two agree when every
  entry of the aggregate is a real number — which holds because the float inputs are finite, so their entries are
  real, and products, finite sums and the aggregate's stages keep entries real. The aggregate itself is the same
  function in both programs, and the kernel's matrix product, entry by entry the sum of products, is the host's.
-/
import proofs.«132868_j17540646437112_1_alg».proof.Proof.KernelValue
import proofs.«132868_j17540646437112_1_alg».proof.Proof.AggReal
import proofs.«132868_j17540646437112_1_alg».proof.Proof.ChainEq
import proofs.«132868_j17540646437112_1_alg».proof.Proof.BnBridge
import proofs.«132868_j17540646437112_1_alg».proof.Proof.PreReal
import proofs.«132868_j17540646437112_1_alg».proof.Proof.RefDot
import proofs.«132868_j17540646437112_1_alg».proof.Proof.MatmulReal

noncomputable section

namespace Cert.KernelIdeal.Final

open Cert.KernelIdeal Idealize.ShloMosaic Idealize.ShloMosaic.TcCoe Idealize.SL.Sem
open Idealize.ShloMosaic.RealEntries

variable (m : (ℓ : Loc nD τ sig) → Buf (Elt Ideal) ℓ) (ρ : Dev nD → PrngReg)

/-- The reference's function of the kernel's argument arrays: the normalised aggregate of the host's product. -/
abbrev refOf (c : Dev nD) : Buf (Elt Ideal) ((c.tc : Thread nD τ).loc main_v68) :=
  Cert.ReferenceIdeal.Chain.bnOf
    (Cert.ReferenceIdeal.Chain.aggOf
      (Host.dotGeneral (φ₁ := .f32) (φ₂ := .f32) Cert.ReferenceIdeal.dot_S50000x128_S128x128_S50000x128_1_0_0_1_n_n none
        (m ((c.tc : Thread nD τ).loc main_arg0)) (m ((c.tc : Thread nD τ).loc main_arg3)))
      (m ((c.tc : Thread nD τ).loc main_arg1)) (m ((c.tc : Thread nD τ).loc main_arg2)) (m ((c.tc : Thread nD τ).loc main_arg4)))
    (m ((c.tc : Thread nD τ).loc main_arg5)) (m ((c.tc : Thread nD τ).loc main_arg6))

/-- Under the precondition the kernel's result buffer ends at the reference's function of the arguments. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Gen.W8 m ρ c (Proc.devRef .tc main_v68) = refOf m c := by
  obtain ⟨h0, h3, h4, -, -⟩ := Cert.PreReal.reals_of_pre _ _ _ _ _ _ _ hpre
  have hagg : ∀ i, IsReal (Value.aggK m c i) :=
    AggReal.aggOf_real _ _ _ _ (RegionValue.matmulSpec_real _ _ h0 h3) h4
  rw [Value.out_eq m ρ c]
  refine (Cert.BnBridge.bn_bridge (Value.aggK m c) hagg (m ((c.tc : Thread nD τ).loc main_arg5)) (m ((c.tc : Thread nD τ).loc main_arg6))
    (Value.sumK m c) (Value.sumSqK m c) (fun _ => rfl) (fun _ => rfl)).trans ?_
  show Cert.ReferenceIdeal.Chain.bnOf (Cert.KernelIdeal.Chain.aggOf _ _ _ _) _ _ = _
  rw [Cert.ChainEq.aggOf_eq, ← RegionValue.dot_eq]

end Cert.KernelIdeal.Final

end
-- ==== Proof.lean ====
/-
  A graph convolution followed by batch normalisation and a rectifier, computed two ways, gives one result.

  Both programs form h = x · W (a [50000,128] by [128,128] product), aggregate it over the edges of a graph with
  self-loops (each edge weighted by the inverse square roots of its endpoints' degrees), add a bias, and then
  normalise every column to zero mean and unit variance, scale, shift and clamp below at zero. The kernel's
  program takes the product in ten row blocks, accumulates the column totals and the column totals of the squares
  in a second pass over ten row blocks, and normalises in a third with variance = mean of squares − square of the
  mean; the reference takes the variance as the mean of the squared deviations from the mean.

  The claims: each program runs to the end without a fault and leaves its arguments unchanged (for the kernel's two
  programs this is the run of its three regions among the host operations, for the reference the run of its host
  operations); the idealised kernel is the kernel's own text read over the extended reals (nothing was rewritten);
  and over the extended reals, from memories that agree on the arguments and whose float inputs are finite, the
  two results are equal entry by entry. The last rests on: the regrouping of a sum over 50000 rows into ten blocks
  (no finiteness needed); the identity mean((a − mean a)²) = mean(a²) − (mean a)², which needs every entry of the
  aggregate to be a real number; and that holds because finite inputs are real and every stage up to the aggregate
  keeps entries real.
-/
import proofs.«132868_j17540646437112_1_alg».proof.Defs
import proofs.«132868_j17540646437112_1_alg».proof.Proof.Gen.Kernel
import proofs.«132868_j17540646437112_1_alg».proof.Proof.Gen.Kernel.Skeleton
import proofs.«132868_j17540646437112_1_alg».proof.Proof.Gen.Kernel.Launch
import proofs.«132868_j17540646437112_1_alg».proof.Proof.Gen.Kernel.Points
import proofs.«132868_j17540646437112_1_alg».proof.Proof.Gen.Kernel.Frame
import proofs.«132868_j17540646437112_1_alg».proof.Proof.Gen.KernelIdeal
import proofs.«132868_j17540646437112_1_alg».proof.Proof.Gen.KernelIdeal.Skeleton
import proofs.«132868_j17540646437112_1_alg».proof.Proof.Gen.KernelIdeal.Launch
import proofs.«132868_j17540646437112_1_alg».proof.Proof.Gen.KernelIdeal.Points
import proofs.«132868_j17540646437112_1_alg».proof.Proof.Gen.KernelIdeal.Frame
import proofs.«132868_j17540646437112_1_alg».proof.Proof.Gen.ReferenceIdeal
import proofs.«132868_j17540646437112_1_alg».proof.Proof.Gen.Pre_finite_inputs
import proofs.«132868_j17540646437112_1_alg».proof.Proof.KernelRun
import proofs.«132868_j17540646437112_1_alg».proof.Proof.RefRun
import proofs.«132868_j17540646437112_1_alg».proof.Proof.Final
import Idealize.ShloMosaic.Adequacy
import Idealize.ShloMosaic.Init

noncomputable section

namespace Cert.Proof

open Idealize.ShloMosaic Idealize.SL.Sem

/-- The kernel's program runs and keeps its arguments. -/
theorem frame_Kernel : Cert.frame_Kernel := fun m ρ _ => Cert.Kernel.Gen.frame m ρ

/-- The idealised kernel's program runs and keeps its arguments. -/
theorem frame_KernelIdeal : Cert.frame_KernelIdeal := fun m ρ _ => Cert.KernelIdeal.Gen.frame m ρ

/-- The reference runs and keeps its arguments: its run with the result dropped. -/
theorem frame_ReferenceIdeal : Cert.frame_ReferenceIdeal := fun m ρ _ =>
  (θ_run Cert.ReferenceIdeal.defs _ _).mono (fun _ h c => (h c).2) (Cert.ReferenceIdeal.HandRun.run m ρ)

/-- Over the extended reals, from memories agreeing on the arguments with finite float inputs, both programs end with
    the same result: the reference's function of the arguments. -/
theorem algebraic : Cert.algebraic_KernelIdeal_ReferenceIdeal := by
  intro m ρ m' ρ' hpre hagree
  refine ⟨fun c => Cert.KernelIdeal.Final.refOf m c, ?_, ?_⟩
  · exact (θ_run Cert.KernelIdeal.defs _ _).mono
      (fun _ h c => ⟨(h c).1.trans (Cert.KernelIdeal.Final.result_eq m ρ c (hpre c)), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.HandRun.run m' ρ')
    obtain ⟨e0, e1, e2, e3, e4, e5, e6⟩ := hagree c
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
